-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S4x1024x512 : S_.BroadcastsInDim S4x1024x512 (![] : Fin 0 → Fin S4x1024x512.rank)
  reducesTo_S4x1024x512_S_d0_1_2 : S4x1024x512.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S65536x512 .f32) (main_arg1 : IVec S65536 32) (main_arg2 : FVec F S4x1024x512 .f32) (main_arg3 : FVec F S4x1024 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S4x1024x512 .f32 := Host.absf main_arg2
  let main_cst_0 : FVec F S_ .f32 := constant S_ .f32 0x7F800000#32
  let main_v5 : FVec F S4x1024x512 .f32 := broadcastInDim S4x1024x512 ![] bcast_S_S4x1024x512 main_cst_0
  let main_v6 : IVec S4x1024x512 1 := cmpf .olt main_v4 main_v5
  let main_c_1 : IVec S_ 1 := constantI S_ 1 1#1
  let main_v7 : IVec S_ 1 := (fun x v => Host.reduce IntOp.andi x v reducesTo_S4x1024x512_S_d0_1_2 h_S_) main_v6 main_c_1
  let main_v8 : IVec S_ 1 := andi main_v3 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S4 : Shape := ⟨1, ![4]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S4x1x512 : Shape := ⟨3, ![4, 1, 512]⟩
abbrev S65536x1 : Shape := ⟨2, ![65536, 1]⟩
abbrev S65536x1024 : Shape := ⟨2, ![65536, 1024]⟩
abbrev S1024x512 : Shape := ⟨2, ![1024, 512]⟩
abbrev S1024x1 : Shape := ⟨2, ![1024, 1]⟩
abbrev S1024x1024 : Shape := ⟨2, ![1024, 1024]⟩
abbrev S1024x128 : Shape := ⟨2, ![1024, 128]⟩
abbrev S1x1024x128 : Shape := ⟨3, ![1, 1024, 128]⟩
abbrev S1x1024 : Shape := ⟨2, ![1, 1024]⟩
abbrev S1024 : Shape := ⟨1, ![1024]⟩
abbrev S1024x256 : Shape := ⟨2, ![1024, 256]⟩
abbrev S1x1024x256 : Shape := ⟨3, ![1, 1024, 256]⟩
abbrev S1x1024x512 : Shape := ⟨3, ![1, 1024, 512]⟩

abbrev nBuf : Space → Nat
  | .hbm => 18
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S4x1024x512, .f32⟩
  | .hbm, ⟨3, _⟩ => ⟨S4x1024, .f32⟩
  | .hbm, ⟨4, _⟩ => ⟨S4, .i32⟩
  | .hbm, ⟨5, _⟩ => ⟨S512, .i32⟩
  | .hbm, ⟨6, _⟩ => ⟨S1x512, .i32⟩
  | .hbm, ⟨7, _⟩ => ⟨S4x1, .i32⟩
  | .hbm, ⟨8, _⟩ => ⟨S4x512, .i32⟩
  | .hbm, ⟨9, _⟩ => ⟨S4x512, .i32⟩
  | .hbm, ⟨10, _⟩ => ⟨S4x512, .i1⟩
  | .hbm, ⟨11, _⟩ => ⟨S4x512, .f32⟩
  | .hbm, ⟨12, _⟩ => ⟨S4x1x512, .f32⟩
  | .hbm, ⟨13, _⟩ => ⟨S4x1024x512, .f32⟩
  | .hbm, ⟨14, _⟩ => ⟨S4x1024x512, .f32⟩
  | .hbm, ⟨15, _⟩ => ⟨S4x1024x512, .bf16⟩
  | .hbm, ⟨16, _⟩ => ⟨S65536x1, .i32⟩
  | .hbm, ⟨17, _⟩ => ⟨S65536x1024, .f32⟩
  | .local _ .vmem, ⟨0, _⟩ => ⟨S1024x512, .f32⟩
  | .local _ .vmem, ⟨1, _⟩ => ⟨S1024x512, .f32⟩
  | .local _ .vmem, ⟨2, _⟩ => ⟨S4x1024x512, .bf16⟩
  | .local _ .vmem, ⟨3, _⟩ => ⟨S4x1024, .f32⟩
  | .local _ .vmem, ⟨4, _⟩ => ⟨S1024x1, .i32⟩
  | .local _ .vmem, ⟨5, _⟩ => ⟨S1024x1, .i32⟩
  | .local _ .vmem, ⟨6, _⟩ => ⟨S1024x1024, .f32⟩
  | .local _ .vmem, ⟨7, _⟩ => ⟨S1024x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S4x512_S4x1x512_0_2 : S4x512.BroadcastsInDim S4x1x512 (![0, 2] : Fin 2 → Fin S4x1x512.rank)
  bcast_S4x1x512_S4x1024x512_0_1_2 : S4x1x512.BroadcastsInDim S4x1024x512 (![0, 1, 2] : Fin 3 → Fin S4x1024x512.rank)
  bitsLt_bf16_f32 : FTy.bits .bf16 < FTy.bits .f32
  shapeCasts_S65536_S65536x1 : S65536.ShapeCasts S65536x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S1024x512_o0_0_S1024x128 : S1024x512.Slices ![0, 0] S1024x128
  inb_S4x1024x512_S1x1024x128_0_0_0 : ∀ a, (![0, 0, 0] : Fin 3 → Nat) a + S1x1024x128.size a ≤ S4x1024x512.size a
  h_S1x1024x128 : 0 < S1x1024x128.numel
  shapeCasts_S1x1024x128_S1024x128 : S1x1024x128.ShapeCasts S1024x128
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  natLt_1_32 : 1 < 32
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  inb_S4x1024x512_S1x1024x128_1_0_0 : ∀ a, (![1, 0, 0] : Fin 3 → Nat) a + S1x1024x128.size a ≤ S4x1024x512.size a
  inb_S4x1024_S1x1024_1_0 : ∀ a, (![1, 0] : Fin 2 → Nat) a + S1x1024.size a ≤ S4x1024.size a
  shapeCasts_S1024x1024_S1024x1024 : S1024x1024.ShapeCasts S1024x1024
  slices_S1024x512_o0_0_S1024x256 : S1024x512.Slices ![0, 0] S1024x256
  inb_S4x1024x512_S1x1024x256_2_0_0 : ∀ a, (![2, 0, 0] : Fin 3 → Nat) a + S1x1024x256.size a ≤ S4x1024x512.size a
  h_S1x1024x256 : 0 < S1x1024x256.numel
  shapeCasts_S1x1024x256_S1024x256 : S1x1024x256.ShapeCasts S1024x256
  inb_S4x1024_S1x1024_2_0 : ∀ a, (![2, 0] : Fin 2 → Nat) a + S1x1024.size a ≤ S4x1024.size a
  inb_S4x1024x512_S1x1024x512_3_0_0 : ∀ a, (![3, 0, 0] : Fin 3 → Nat) a + S1x1024x512.size a ≤ S4x1024x512.size a
  h_S1x1024x512 : 0 < S1x1024x512.numel
  shapeCasts_S1x1024x512_S1024x512 : S1x1024x512.ShapeCasts S1024x512
  inb_S4x1024_S1x1024_3_0 : ∀ a, (![3, 0] : Fin 2 → Nat) a + S1x1024.size a ≤ S4x1024.size a
  dot_S1024x128_S1024x128_S1024x1024_1_1_0_0_n_n_wf : DotDims.WF S1024x128 S1024x128 S1024x1024 [1] [1] [0] [0] [] []
  dot_S1024x256_S1024x256_S1024x1024_1_1_0_0_n_n_wf : DotDims.WF S1024x256 S1024x256 S1024x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x1024x512.size a
  hwx0_1 : ∀ i : grid0.Coords, EltTy.bits .bf16 = 32 ∨ (Rect.block (s := S4x1024x512) S4x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S65536x1.size a
  hwx0_3 : ∀ i : grid0.Coords, EltTy.bits .i32 = 32 ∨ (Rect.block (s := S65536x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S4x1024x512 : Shape := ⟨3, ![4, 1024, 512]⟩
abbrev S4x1024 : Shape := ⟨2, ![4, 1024]⟩
abbrev S4 : Shape := ⟨1, ![4]⟩
abbrev S512 : Shape := ⟨1, ![512]⟩
abbrev S1x512 : Shape := ⟨2, ![1, 512]⟩
abbrev S4x1 : Shape := ⟨2, ![4, 1]⟩
abbrev S4x512 : Shape := ⟨2, ![4, 512]⟩
abbrev S_ : Shape := ⟨0, ![]⟩
abbrev S65536x1024 : Shape := ⟨2, ![65536, 1024]⟩
abbrev S1x1024x512 : Shape := ⟨3, ![1, 1024, 512]⟩
abbrev S1024x512 : Shape := ⟨2, ![1024, 512]⟩
abbrev S1x1024 : Shape := ⟨2, ![1, 1024]⟩
abbrev S1024 : Shape := ⟨1, ![1024]⟩
abbrev S65536x1 : Shape := ⟨2, ![65536, 1]⟩

abbrev nBuf : Space → Nat
  | .hbm => 98
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S4x1024x512, .f32⟩
  | .hbm, ⟨3, _⟩ => ⟨S4x1024, .f32⟩
  | .hbm, ⟨4, _⟩ => ⟨S4, .i32⟩
  | .hbm, ⟨5, _⟩ => ⟨S512, .i32⟩
  | .hbm, ⟨6, _⟩ => ⟨S1x512, .i32⟩
  | .hbm, ⟨7, _⟩ => ⟨S4x1, .i32⟩
  | .hbm, ⟨8, _⟩ => ⟨S4x512, .i32⟩
  | .hbm, ⟨9, _⟩ => ⟨S4x512, .i32⟩
  | .hbm, ⟨10, _⟩ => ⟨S4x512, .i1⟩
  | .hbm, ⟨11, _⟩ => ⟨S4x512, .f32⟩
  | .hbm, ⟨12, _⟩ => ⟨S_, .f32⟩
  | .hbm, ⟨13, _⟩ => ⟨S65536x1024, .f32⟩
  | .hbm, ⟨14, _⟩ => ⟨S1x1024x512, .f32⟩
  | .hbm, ⟨15, _⟩ => ⟨S1024x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S1024x512, .f32⟩
  | .hbm, ⟨20, _⟩ => ⟨S1024x512, .f32⟩
  | .hbm, ⟨21, _⟩ => ⟨S65536x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S65536, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S1x1024x512, .f32⟩
  | .hbm, ⟨36, _⟩ => ⟨S1024x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S1024x512, .f32⟩
  | .hbm, ⟨41, _⟩ => ⟨S1024x512, .f32⟩
  | .hbm, ⟨42, _⟩ => ⟨S65536x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S65536, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S1x1024x512, .f32⟩
  | .hbm, ⟨57, _⟩ => ⟨S1024x512, .f32⟩
  | .hbm, ⟨58, _⟩ => ⟨S1x512, .f32⟩
  | .hbm, ⟨59, _⟩ => ⟨S512, .f32⟩
  | .hbm, ⟨60, _⟩ => ⟨S1x512, .f32⟩
  | .hbm, ⟨61, _⟩ => ⟨S1024x512, .f32⟩
  | .hbm, ⟨62, _⟩ => ⟨S1024x512, .f32⟩
  | .hbm, ⟨63, _⟩ => ⟨S65536x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S65536, .f32⟩
  | .hbm, ⟨73, _⟩ => ⟨S65536x1, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S1x1024x512, .f32⟩
  | .hbm, ⟨78, _⟩ => ⟨S1024x512, .f32⟩
  | .hbm, ⟨79, _⟩ => ⟨S1x512, .f32⟩
  | .hbm, ⟨80, _⟩ => ⟨S512, .f32⟩
  | .hbm, ⟨81, _⟩ => ⟨S1x512, .f32⟩
  | .hbm, ⟨82, _⟩ => ⟨S1024x512, .f32⟩
  | .hbm, ⟨83, _⟩ => ⟨S1024x512, .f32⟩
  | .hbm, ⟨84, _⟩ => ⟨S65536x1024, .f32⟩
  | .hbm, ⟨85, _⟩ => ⟨S1x1024, .f32⟩
  | .hbm, ⟨86, _⟩ => ⟨S1024, .f32⟩
  | .hbm, ⟨87, _⟩ => ⟨S1x1024, .f32⟩
  | .hbm, ⟨88, _⟩ => ⟨S65536x1024, .f32⟩
  | .hbm, ⟨89, _⟩ => ⟨S65536x1024, .f32⟩
  | .hbm, ⟨90, _⟩ => ⟨S_, .i32⟩
  | .hbm, ⟨91, _⟩ => ⟨S65536, .i32⟩
  | .hbm, ⟨92, _⟩ => ⟨S65536, .i1⟩
  | .hbm, ⟨93, _⟩ => ⟨S65536, .f32⟩
  | .hbm, ⟨94, _⟩ => ⟨S65536x1, .f32⟩
  | .hbm, ⟨95, _⟩ => ⟨S65536x1024, .f32⟩
  | .hbm, ⟨96, _⟩ => ⟨S65536x1024, .f32⟩
  | .hbm, ⟨97, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_1 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c_2 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_c_3 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  bcast_S_S65536x1024 : S_.BroadcastsInDim S65536x1024 (![] : Fin 0 → Fin S65536x1024.rank)
  slices_S4x1024x512_S1x1024x512_0_0_0 : S4x1024x512.Slices ![0, 0, 0] S1x1024x512
  shapeCasts_S1x1024x512_S1024x512 : S1x1024x512.ShapeCasts S1024x512
  slices_S4x512_S1x512_0_0 : S4x512.Slices ![0, 0] S1x512
  shapeCasts_S1x512_S512 : S1x512.ShapeCasts S512
  bcast_S1x512_S1024x512_0_1 : S1x512.BroadcastsInDim S1024x512 (![0, 1] : Fin 2 → Fin S1024x512.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  slices_S4x1024x512_S1x1024x512_1_0_0 : S4x1024x512.Slices ![1, 0, 0] S1x1024x512
  slices_S4x512_S1x512_1_0 : S4x512.Slices ![1, 0] S1x512
  slices_S4x1024_S1x1024_1_0 : S4x1024.Slices ![1, 0] S1x1024
  slices_S4x1024x512_S1x1024x512_2_0_0 : S4x1024x512.Slices ![2, 0, 0] S1x1024x512
  slices_S4x512_S1x512_2_0 : S4x512.Slices ![2, 0] S1x512
  slices_S4x1024_S1x1024_2_0 : S4x1024.Slices ![2, 0] S1x1024
  slices_S4x1024x512_S1x1024x512_3_0_0 : S4x1024x512.Slices ![3, 0, 0] S1x1024x512
  slices_S4x512_S1x512_3_0 : S4x512.Slices ![3, 0] S1x512
  slices_S4x1024_S1x1024_3_0 : S4x1024.Slices ![3, 0] S1x1024
  dot_S65536x512_S1024x512_S65536x1024_1_1_0_0_n_n_wf : DotDims.WF S65536x512 S1024x512 S65536x1024 [1] [1] [0] [0] [] []

variable [Facts₀]

def dot_S65536x512_S1024x512_S65536x1024_1_1_0_0_n_n : DotDims S65536x512 S1024x512 S65536x1024 where
  lhsContracting := [1]
  rhsContracting := [1]
  lhsNonContracting := [0]
  rhsNonContracting := [0]
  lhsBatch := []
  rhsBatch := []
  wf := dot_S65536x512_S1024x512_S65536x1024_1_1_0_0_n_n_wf

class Facts : Prop extends Facts₀ where

variable [Facts]
-- ==== Proof.KernelBody.lean ====
/-
  What the kernel body leaves in its output block, as one term of the four input blocks.

  The body stores the whole 1024 x 1024 output block four times: first expert 0's gated result, then three times
  "what the block holds, plus the next expert's gated result".  Every store covers the whole block and every load of the
  block reads what the store just before it wrote, so the block ends at
      ((e0 + e1) + e2) + e3
  where e_g is expert g's gated result computed from the token block x0, the (whole) masked weight table x1, the (whole)
  bias table x2 and the block of declared sizes x3.
-/
import proofs.«181010_j4801773437021_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelValue

open Cert.KernelIdeal Cert.KernelIdeal.Gen Idealize.ShloMosaic Idealize.ShloMosaic.TcCoe Idealize.ShloMosaic.Tactic Idealize.SL.Sem

/-- The zero offsets of a rank-2 whole-block access. -/
theorem zeroOff2 : (![0, 0] : Fin 2 → ℕ) = fun _ => 0 := by funext a; fin_cases a <;> rfl

/-- A load of the whole block after a list of stores whose LAST one wrote the whole block reads that store's payload. -/
theorem readCov_cons_unit_zero {S : Shape} {e : EltTy} {sg : RefSig} {κ : Kind} {sp : Space}
    {off : Fin S.rank → Nat} (h : off = fun _ => 0) (v : View sg κ sp S e)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The output block after the body, from the four input blocks. -/
def bodyOut (x0 : Vec Ideal S1024x512 .f32) (x1 : Vec Ideal S4x1024x512 .bf16) (x2 : Vec Ideal S4x1024 .f32) (x3 : Vec Ideal S1024x1 .i32) :
    Vec Ideal S1024x1024 .f32 :=
  k0_pay1
    (k0_pay8 (k0_pay2 x0) (k0_pay3 x3)
      (View.ld x1 (Rect.unit ![3, 0, 0] ![1, 1024, 512] Facts₀.inb_S4x1024x512_S1x1024x512_3_0_0))
      (View.ld x2 (Rect.unit ![3, 0] ![1, 1024] Facts₀.inb_S4x1024_S1x1024_3_0)))
    (k0_pay7 (k0_pay2 x0) (k0_pay3 x3)
      (View.ld x1 (Rect.unit ![2, 0, 0] ![1, 1024, 256] Facts₀.inb_S4x1024x512_S1x1024x256_2_0_0))
      (View.ld x2 (Rect.unit ![2, 0] ![1, 1024] Facts₀.inb_S4x1024_S1x1024_2_0))
      (k0_pay6
        (k0_pay5 x0 x3
          (View.ld x1 (Rect.unit ![1, 0, 0] ![1, 1024, 128] Facts₀.inb_S4x1024x512_S1x1024x128_1_0_0))
          (View.ld x2 (Rect.unit ![1, 0] ![1, 1024] Facts₀.inb_S4x1024_S1x1024_1_0)))
        (k0_pay4 x0 x3
          (View.ld x1 (Rect.unit ![0, 0, 0] ![1, 1024, 128] Facts₀.inb_S4x1024x512_S1x1024x128_0_0_0))
          (View.ld x2 (Rect.unit ![0, 0] ![1, 1024] Facts₀.inb_S4x1024_S1x1024_0_0)))))

/-- What the run of the body found in the output's staging buffer is `bodyOut` of the input blocks. -/
theorem out_eq (c : Dev nD) (i : grid0.Coords) (arg1 : Memref sig .tc .vmem S1024x512 .f32) (harg1 : arg1.IsWhole) (arg2 : Memref sig .tc .vmem S4x1024x512 .bf16) (harg2 : arg2.IsWhole) (arg3 : Memref sig .tc .vmem S4x1024 .f32) (harg3 : arg3.IsWhole) (arg4 : Memref sig .tc .vmem S1024x1 .i32) (harg4 : arg4.IsWhole) (arg5 : Memref sig .tc .vmem S1024x1024 .f32) (harg5 : arg5.IsWhole)
    (x0 : Vec Ideal S1024x512 .f32) (x1 : Vec Ideal S4x1024x512 .bf16) (x2 : Vec Ideal S4x1024 .f32) (x3 : Vec Ideal S1024x1 .i32) :
    out0_A_4 (F := Ideal) c i arg1 harg1 arg2 harg2 arg3 harg3 arg4 harg4 arg5 harg5 x0 x1 x2 x3 = bodyOut x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_cons_unit_zero zeroOff2]
  simp only [View.readAt_eq_ld, harg1.read_unread, harg2.read_unread, harg3.read_unread, harg4.read_unread, View.ld_unit_zero (S := S1024x512) zeroOff2, View.ld_unit_zero (S := S1024x1) zeroOff2]
  repeat rw [readCov_cons_unit_zero zeroOff2]
  rfl

end Cert.KernelValue

end
-- ==== Proof.Spec.lean ====
/-
  The routed affine map that both programs compute, as one function of the argument arrays over the extended reals.

  A token (row n of x, 512 features) declares an input size fs n.  There are four experts g = 0..3 with declared sizes
  64, 128, 256, 512; expert g has a weight matrix w[g] (1024 x 512), a bias row b[g] and a 0/1 feature mask μ[g] that
  keeps the first size_g features.  The result row of token n is

      out[n, o] = Σ_g  [fs n = size_g] · ( Σ_k x[n, k] · (w[g, o, k] · μ[g, k])  +  b[g, o] ),

  the four gated terms added in the order g = 0, 1, 2, 3.  Also here: the mask as the host operations build it, read
  at an index; the 0/1 gate in its two spellings; and the one law of finite sums the comparison needs (a sum whose
  terms vanish from position K on is the sum of its first K terms).
-/
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx

/-- The gate of an expert with declared size `c` at a token that declares `v`: 1 when they are equal, else 0. -/
def gate (c v : BitVec 32) : EReal := (((IntOp.cmpi .eq v c).toNat : ℝ) : EReal)

/-- Expert `g` (declared size `c`) applied to token `n`, output feature `o`, gated by the token's declared size. -/
def expert (c : BitVec 32) (g : Fin 4) (x : (⟨2, ![65536, 512]⟩ : Shape).Idx → EReal) (fs : (⟨1, ![65536]⟩ : Shape).Idx → BitVec 32)
    (w : (⟨3, ![4, 1024, 512]⟩ : Shape).Idx → EReal) (b : (⟨2, ![4, 1024]⟩ : Shape).Idx → EReal)
    (μ : (⟨2, ![4, 512]⟩ : Shape).Idx → EReal) (n : Fin 65536) (o : Fin 1024) : EReal :=
  gate c (fs (ix1 n)) * ((∑ k : Fin 512, x (ix2 n k) * (w (ix3 g o k) * μ (ix2 g k))) + b (ix2 g o))

/-- The four gated experts of token `n` at output feature `o`, added in order. -/
def routedAt (x : (⟨2, ![65536, 512]⟩ : Shape).Idx → EReal) (fs : (⟨1, ![65536]⟩ : Shape).Idx → BitVec 32)
    (w : (⟨3, ![4, 1024, 512]⟩ : Shape).Idx → EReal) (b : (⟨2, ![4, 1024]⟩ : Shape).Idx → EReal)
    (μ : (⟨2, ![4, 512]⟩ : Shape).Idx → EReal) (n : Fin 65536) (o : Fin 1024) : EReal :=
  ((expert 64#32 0 x fs w b μ n o + expert 128#32 1 x fs w b μ n o) + expert 256#32 2 x fs w b μ n o)
    + expert 512#32 3 x fs w b μ n o

/-- The whole result array. -/
def routed (x : (⟨2, ![65536, 512]⟩ : Shape).Idx → EReal) (fs : (⟨1, ![65536]⟩ : Shape).Idx → BitVec 32)
    (w : (⟨3, ![4, 1024, 512]⟩ : Shape).Idx → EReal) (b : (⟨2, ![4, 1024]⟩ : Shape).Idx → EReal)
    (μ : (⟨2, ![4, 512]⟩ : Shape).Idx → EReal) : (⟨2, ![65536, 1024]⟩ : Shape).Idx → EReal :=
  fun i => routedAt x fs w b μ (i 0) (i 1)

theorem routed_apply (x : (⟨2, ![65536, 512]⟩ : Shape).Idx → EReal) (fs : (⟨1, ![65536]⟩ : Shape).Idx → BitVec 32)
    (w : (⟨3, ![4, 1024, 512]⟩ : Shape).Idx → EReal) (b : (⟨2, ![4, 1024]⟩ : Shape).Idx → EReal)
    (μ : (⟨2, ![4, 512]⟩ : Shape).Idx → EReal) (n : Fin 65536) (o : Fin 1024) :
    routed x fs w b μ (ix2 n o) = routedAt x fs w b μ n o := rfl

/-! ## The feature mask as the host builds it -/

/-- The 4 x 512 feature mask: feature position k (an iota over the 512 features, broadcast over the experts) compared,
    signed, with the expert's declared size (the table `lit`, broadcast over the features), as a 0/1 float. -/
def featMask (h1 : (⟨1, ![512]⟩ : Shape).BroadcastsInDim ⟨2, ![1, 512]⟩ (![1] : Fin 1 → Fin 2))
    (h2 : (⟨1, ![4]⟩ : Shape).BroadcastsInDim ⟨2, ![4, 1]⟩ (![0] : Fin 1 → Fin 2))
    (h3 : (⟨2, ![1, 512]⟩ : Shape).BroadcastsInDim ⟨2, ![4, 512]⟩ (![0, 1] : Fin 2 → Fin 2))
    (h4 : (⟨2, ![4, 1]⟩ : Shape).BroadcastsInDim ⟨2, ![4, 512]⟩ (![0, 1] : Fin 2 → Fin 2))
    (lit : (⟨1, ![4]⟩ : Shape).Idx → BitVec 32) : (⟨2, ![4, 512]⟩ : Shape).Idx → EReal :=
  uitofp (F := Ideal) .f32 (cmpi .slt
    (broadcastInDim ⟨2, ![4, 512]⟩ ![0, 1] h3 (broadcastInDim ⟨2, ![1, 512]⟩ ![1] h1 (iotaInDim ⟨1, ![512]⟩ 32 0)))
    (broadcastInDim ⟨2, ![4, 512]⟩ ![0, 1] h4 (broadcastInDim ⟨2, ![4, 1]⟩ ![0] h2 lit)))

/-- The mask at expert `g`, feature `k`: the comparison of `k` with the expert's declared size, as 0 or 1. -/
theorem featMask_apply (h1 : (⟨1, ![512]⟩ : Shape).BroadcastsInDim ⟨2, ![1, 512]⟩ (![1] : Fin 1 → Fin 2))
    (h2 : (⟨1, ![4]⟩ : Shape).BroadcastsInDim ⟨2, ![4, 1]⟩ (![0] : Fin 1 → Fin 2))
    (h3 : (⟨2, ![1, 512]⟩ : Shape).BroadcastsInDim ⟨2, ![4, 512]⟩ (![0, 1] : Fin 2 → Fin 2))
    (h4 : (⟨2, ![4, 1]⟩ : Shape).BroadcastsInDim ⟨2, ![4, 512]⟩ (![0, 1] : Fin 2 → Fin 2))
    (lit : (⟨1, ![4]⟩ : Shape).Idx → BitVec 32) (g : Fin 4) (k : Fin 512) :
    featMask h1 h2 h3 h4 lit (ix2 g k)
      = (((IntOp.cmpi .slt (BitVec.ofNat 32 k.val) (lit (ix1 g))).toNat : ℝ) : EReal) := by
  have e1 : broadcastInDim ⟨2, ![4, 512]⟩ ![0, 1] h3 (broadcastInDim ⟨2, ![1, 512]⟩ ![1] h1 (iotaInDim ⟨1, ![512]⟩ 32 0)) (ix2 g k)
      = BitVec.ofNat 32 k.val := by
    refine (broadcastInDim_apply _ h3 _ (ix2 g k) (ix2 (0 : Fin 1) k) fun a => ?_).trans ?_
    · match a with
      | ⟨0, _⟩ => rfl
      | ⟨1, _⟩ => rfl
    refine (broadcastInDim_apply _ h1 _ (ix2 (0 : Fin 1) k) (ix1 k) fun a => ?_).trans rfl
    match a with
    | ⟨0, _⟩ => rfl
  have e2 : broadcastInDim ⟨2, ![4, 512]⟩ ![0, 1] h4 (broadcastInDim ⟨2, ![4, 1]⟩ ![0] h2 lit) (ix2 g k) = lit (ix1 g) := by
    refine (broadcastInDim_apply _ h4 _ (ix2 g k) (ix2 g (0 : Fin 1)) fun a => ?_).trans ?_
    · match a with
      | ⟨0, _⟩ => rfl
      | ⟨1, _⟩ => rfl
    refine broadcastInDim_apply _ h2 _ (ix2 g (0 : Fin 1)) (ix1 g) fun a => ?_
    match a with
    | ⟨0, _⟩ => rfl
  show (((IntOp.cmpi .slt _ _).toNat : ℝ) : EReal) = _
  rw [e1, e2]

/-! ## The gate in the kernel's spelling -/

/-- A one-bit word widened to 32 bits and read as a signed integer is the bit read as a natural number. -/
theorem toInt_setWidth_bit (b : BitVec 1) : (((b.setWidth 32).toInt : ℝ) : EReal) = ((b.toNat : ℝ) : EReal) := by
  by_cases h : b = 1#1
  · subst h; norm_num
  · have h0 := eq_zero_of_ne_one h
    subst h0; norm_num

/-! ## A sum whose tail vanishes -/

/-- A sum over `N` positions whose terms vanish from position `K` on is the sum over the first `K` positions. -/
theorem sum_trunc {N K : ℕ} (h : K ≤ N) (f : Fin N → EReal) (hz : ∀ k : Fin N, K ≤ k.val → f k = 0) :
    ∑ k : Fin N, f k = ∑ k : Fin K, f (Fin.castLE h k) := by
  obtain ⟨d, rfl⟩ := Nat.exists_eq_add_of_le h
  rw [Fin.sum_univ_add]
  have hz' : ∑ i : Fin d, f (Fin.natAdd K i) = 0 := Finset.sum_eq_zero fun i _ => hz _ (by simp)
  rw [hz', add_zero]
  rfl

end Cert.Spec

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelExpert.lean ====
/-
  One expert's block of the kernel body, read at an index.

  For a block of 1024 tokens the body forms, per expert, the product of the tokens' first K features with the expert's
  first K weight columns (rows against rows), adds the expert's bias row to every token, and multiplies token p's row
  by the 0/1 gate "token p declares this expert's size".  At (p, q) that is
      gate · ( Σ_{k < K} xs[p, k] · wv[0, q, k]  +  bv[0, q] ).
-/
import Idealize.ShloMosaic.Lib.ValueIdx
import Idealize.ShloMosaic.Lib.ValueLayout
import Idealize.ShloMosaic.PureOps.Ideal.Laws
import proofs.«181010_j4801773437021_2_alg».proof.Proof.Spec
import proofs.«181010_j4801773437021_2_alg».proof.Proof.LibRowsDot
import proofs.«181010_j4801773437021_2_alg».proof.Proof.LibKeepdims

noncomputable section

namespace Cert.KernelValue

open Idealize.ShloMosaic Idealize.ShloMosaic.ValueIdx

/-- The gate column (one 0/1 word per token, widened and converted) broadcast over the output features reads, at (p, q),
    the gate of token p. -/
theorem gateCol_apply (v3 : IVec ⟨2, ![1024, 1]⟩ 32) (c : BitVec 32) (hlt : 1 < 32)
    (hg : (⟨2, ![1024, 1]⟩ : Shape).Broadcasts ⟨2, ![1024, 1024]⟩) (p q : Fin 1024) :
    broadcastTo ⟨2, ![1024, 1024]⟩ (sitofp (F := Ideal) .f32 (extui 32 (cmpi .eq v3 (broadcast ⟨2, ![1024, 1]⟩ c)) hlt)) hg (ix2 p q)
      = Cert.Spec.gate c (v3 (ix2 p (0 : Fin 1))) := by
  rw [Cert.LibKeepdims.broadcastTo_a1_ab_apply]
  exact Cert.Spec.toInt_setWidth_bit _

/-- The bias row, flattened, given back its unit axis and broadcast over the tokens, reads at (p, q) the bias of feature q. -/
theorem biasRow_apply (bv : FVec Ideal ⟨2, ![1, 1024]⟩ .f32) (h1 : (⟨2, ![1, 1024]⟩ : Shape).ShapeCasts ⟨1, ![1024]⟩)
    (h2 : (⟨1, ![1024]⟩ : Shape).ShapeCasts ⟨2, ![1, 1024]⟩) (h3 : (⟨2, ![1, 1024]⟩ : Shape).Broadcasts ⟨2, ![1024, 1024]⟩)
    (p q : Fin 1024) :
    broadcastTo ⟨2, ![1024, 1024]⟩ (shapeCast ⟨2, ![1, 1024]⟩ (shapeCast ⟨1, ![1024]⟩ bv h1) h2) h3 (ix2 p q) = bv (ix2 (0 : Fin 1) q) := by
  rw [broadcastTo_1b_ab_apply, shapeCast_a_1a_apply, shapeCast_1a_a_apply]

/-- One expert's gated block at (p, q). -/
theorem expertBlock_apply {K : ℕ} (D : DotDims ⟨2, ![1024, K]⟩ ⟨2, ![1024, K]⟩ ⟨2, ![1024, 1024]⟩)
    (hD : D = DotDims.transposedRhs 1024 K 1024)
    (xs : FVec Ideal ⟨2, ![1024, K]⟩ .bf16) (wv : FVec Ideal ⟨3, ![1, 1024, K]⟩ .bf16) (bv : FVec Ideal ⟨2, ![1, 1024]⟩ .f32)
    (v3 : IVec ⟨2, ![1024, 1]⟩ 32) (c : BitVec 32)
    (hc : (⟨3, ![1, 1024, K]⟩ : Shape).ShapeCasts ⟨2, ![1024, K]⟩)
    (h1 : (⟨2, ![1, 1024]⟩ : Shape).ShapeCasts ⟨1, ![1024]⟩) (h2 : (⟨1, ![1024]⟩ : Shape).ShapeCasts ⟨2, ![1, 1024]⟩)
    (h3 : (⟨2, ![1, 1024]⟩ : Shape).Broadcasts ⟨2, ![1024, 1024]⟩) (hlt : 1 < 32)
    (hg : (⟨2, ![1024, 1]⟩ : Shape).Broadcasts ⟨2, ![1024, 1024]⟩) (p q : Fin 1024) :
    mulf (broadcastTo ⟨2, ![1024, 1024]⟩ (sitofp (F := Ideal) .f32 (extui 32 (cmpi .eq v3 (broadcast ⟨2, ![1024, 1]⟩ c)) hlt)) hg)
        (addf (FloatOps.matmul D none xs (shapeCast ⟨2, ![1024, K]⟩ wv hc) (constant ⟨2, ![1024, 1024]⟩ .f32 0x00000000#32))
          (broadcastTo ⟨2, ![1024, 1024]⟩ (shapeCast ⟨2, ![1, 1024]⟩ (shapeCast ⟨1, ![1024]⟩ bv h1) h2) h3)) (ix2 p q)
      = Cert.Spec.gate c (v3 (ix2 p (0 : Fin 1)))
          * ((∑ k : Fin K, xs (ix2 p k) * wv (ix3 (0 : Fin 1) q k)) + bv (ix2 (0 : Fin 1) q)) := by
  subst hD
  rw [mulf_apply, addf_apply, gateCol_apply, biasRow_apply, Cert.Lib.matmul_rowsDot_zero_apply]
  refine congrArg (fun s => Cert.Spec.gate c (v3 (ix2 p (0 : Fin 1))) * (s + bv (ix2 (0 : Fin 1) q))) ?_
  exact Finset.sum_congr rfl fun k _ => by rw [shapeCast_1ab_ab_apply]

end Cert.KernelValue

end
-- ==== Proof.KernelPay.lean ====
/-
  The kernel body's output block read at an index.

  With x0 the block of 1024 tokens, x1 the whole masked weight table, x2 the whole bias table and x3 the block's declared
  sizes, entry (p, q) of the block the body leaves is the sum, in order g = 0, 1, 2, 3, of
      gate_g(x3[p, 0]) · ( Σ_{k < K_g} x0[p, k] · x1[g, q, k]  +  x2[g, q] ),      K = 128, 128, 256, 512:
  each expert contracts only the first K_g features.  Where the masked weights vanish from column K_g on, that is the
  expert's full contraction over all 512 features.
-/
import proofs.«181010_j4801773437021_2_alg».proof.Proof.KernelBody
import proofs.«181010_j4801773437021_2_alg».proof.Proof.KernelExpert

set_option maxRecDepth 16384

noncomputable section

namespace Cert.KernelValue

open Cert.KernelIdeal Cert.KernelIdeal.Gen Idealize.ShloMosaic Idealize.ShloMosaic.ValueIdx

/-- Expert `g`'s gated result for token `p` of the block at output feature `q`, contracting the first `K` features. -/
def blockExpert (c : BitVec 32) (g : Fin 4) (K : ℕ) (hK : K ≤ 512)
    (x0 : (⟨2, ![1024, 512]⟩ : Shape).Idx → EReal) (x1 : (⟨3, ![4, 1024, 512]⟩ : Shape).Idx → EReal)
    (x2 : (⟨2, ![4, 1024]⟩ : Shape).Idx → EReal) (x3 : (⟨2, ![1024, 1]⟩ : Shape).Idx → BitVec 32)
    (p q : Fin 1024) : EReal :=
  Cert.Spec.gate c (x3 (ix2 p (0 : Fin 1)))
    * ((∑ k : Fin K, x0 (ix2 p (Fin.castLE hK k)) * x1 (ix3 g q (Fin.castLE hK k))) + x2 (ix2 g q))

/-- A load of expert `g`'s rows of the weight table, first `K` columns, read at (0, q, k). -/
theorem ldW_apply {K : ℕ} (g : ℕ) (gi : Fin 4) (hgi : gi.val = g) (hK : K ≤ 512) (x1 : Vec Ideal S4x1024x512 .bf16)
    (inb : ∀ a, (![g, 0, 0] : Fin 3 → ℕ) a + (![1, 1024, K] : Fin 3 → ℕ) a ≤ S4x1024x512.size a) (q : Fin 1024) (k : Fin K) :
    View.ld x1 (Rect.unit ![g, 0, 0] ![1, 1024, K] inb) (ix3 (0 : Fin 1) q k) = x1 (ix3 gi q (Fin.castLE hK k)) := by
  refine congrArg x1 (funext fun a => Fin.ext ?_)
  match a with
  | ⟨0, _⟩ => show g + 1 * 0 = gi.val; omega
  | ⟨1, _⟩ => show 0 + 1 * q.val = q.val; omega
  | ⟨2, _⟩ => show 0 + 1 * k.val = k.val; omega

/-- A load of expert `g`'s bias row, read at (0, q). -/
theorem ldB_apply (g : ℕ) (gi : Fin 4) (hgi : gi.val = g) (x2 : Vec Ideal S4x1024 .f32)
    (inb : ∀ a, (![g, 0] : Fin 2 → ℕ) a + (![1, 1024] : Fin 2 → ℕ) a ≤ S4x1024.size a) (q : Fin 1024) :
    View.ld x2 (Rect.unit ![g, 0] ![1, 1024] inb) (ix2 (0 : Fin 1) q) = x2 (ix2 gi q) := by
  refine congrArg x2 (funext fun a => Fin.ext ?_)
  match a with
  | ⟨0, _⟩ => show g + 1 * 0 = gi.val; omega
  | ⟨1, _⟩ => show 0 + 1 * q.val = q.val; omega

/-- The first `K` columns of a token block. -/
theorem sliceX_apply {K : ℕ} (hK : K ≤ 512) (v1 : FVec Ideal S1024x512 .bf16)
    (hs : S1024x512.Slices ![0, 0] ⟨2, ![1024, K]⟩) (p : Fin 1024) (k : Fin K) :
    extractStridedSlice ⟨2, ![1024, K]⟩ ![0, 0] v1 hs (ix2 p k) = v1 (ix2 p (Fin.castLE hK k)) :=
  slice2_axis1_apply 0 _ hs p k (Fin.castLE hK k) (by show k.val = 0 + k.val; omega)

/-- The token block in the narrower float format is the token block (a change of format is the identity here). -/
theorem pay2_apply (x0 : FVec Ideal S1024x512 .f32) (i : S1024x512.Idx) : k0_pay2 (F := Ideal) x0 i = x0 i := rfl

/-- The block of declared sizes, recast to its own shape, is itself. -/
theorem pay3_eq (x3 : IVec S1024x1 32) : k0_pay3 (F := Ideal) x3 = x3 := shapeCast_self _ _

/-- The kernel's dimension numbers are "rows against rows" at each of the three contraction lengths. -/
theorem dims128 : dot_S1024x128_S1024x128_S1024x1024_1_1_0_0_n_n = DotDims.transposedRhs 1024 128 1024 := rfl
theorem dims256 : dot_S1024x256_S1024x256_S1024x1024_1_1_0_0_n_n = DotDims.transposedRhs 1024 256 1024 := rfl
theorem dims512 : dot_S1024x512_S1024x512_S1024x1024_1_1_0_0_n_n = DotDims.transposedRhs 1024 512 1024 := rfl

/-- Expert 0's store. -/
theorem pay4_apply (x0 : FVec Ideal S1024x512 .f32) (x3 : IVec S1024x1 32) (v5 : FVec Ideal S1x1024x128 .bf16) (v8 : FVec Ideal S1x1024 .f32)
    (p q : Fin 1024) :
    k0_pay4 (F := Ideal) x0 x3 v5 v8 (ix2 p q)
      = Cert.Spec.gate 64#32 (x3 (ix2 p (0 : Fin 1)))
          * ((∑ k : Fin 128, x0 (ix2 p (Fin.castLE (by decide : 128 ≤ 512) k)) * v5 (ix3 (0 : Fin 1) q k)) + v8 (ix2 (0 : Fin 1) q)) := by
  have h := expertBlock_apply (K := 128) dot_S1024x128_S1024x128_S1024x1024_1_1_0_0_n_n dims128
    (extractStridedSlice S1024x128 ![0, 0] (k0_pay2 (F := Ideal) x0) Facts₀.slices_S1024x512_o0_0_S1024x128) v5 v8 (k0_pay3 (F := Ideal) x3) 64#32
    Facts₀.shapeCasts_S1x1024x128_S1024x128 Facts₀.shapeCasts_S1x1024_S1024 Facts₀.shapeCasts_S1024_S1x1024
    Facts₀.broadcasts_S1x1024_S1024x1024 Facts₀.natLt_1_32 Facts₀.broadcasts_S1024x1_S1024x1024 p q
  unfold k0_pay4
  refine h.trans ?_
  rw [pay3_eq]
  refine congrArg (fun s => Cert.Spec.gate 64#32 (x3 (ix2 p (0 : Fin 1))) * (s + v8 (ix2 (0 : Fin 1) q))) ?_
  exact Finset.sum_congr rfl fun k _ => by rw [sliceX_apply (by decide : 128 ≤ 512)]; rfl

/-- Expert 1's gated result. -/
theorem pay5_apply (x0 : FVec Ideal S1024x512 .f32) (x3 : IVec S1024x1 32) (v21 : FVec Ideal S1x1024x128 .bf16) (v24 : FVec Ideal S1x1024 .f32)
    (p q : Fin 1024) :
    k0_pay5 (F := Ideal) x0 x3 v21 v24 (ix2 p q)
      = Cert.Spec.gate 128#32 (x3 (ix2 p (0 : Fin 1)))
          * ((∑ k : Fin 128, x0 (ix2 p (Fin.castLE (by decide : 128 ≤ 512) k)) * v21 (ix3 (0 : Fin 1) q k)) + v24 (ix2 (0 : Fin 1) q)) := by
  have h := expertBlock_apply (K := 128) dot_S1024x128_S1024x128_S1024x1024_1_1_0_0_n_n dims128
    (extractStridedSlice S1024x128 ![0, 0] (k0_pay2 (F := Ideal) x0) Facts₀.slices_S1024x512_o0_0_S1024x128) v21 v24 (k0_pay3 (F := Ideal) x3) 128#32
    Facts₀.shapeCasts_S1x1024x128_S1024x128 Facts₀.shapeCasts_S1x1024_S1024 Facts₀.shapeCasts_S1024_S1x1024
    Facts₀.broadcasts_S1x1024_S1024x1024 Facts₀.natLt_1_32 Facts₀.broadcasts_S1024x1_S1024x1024 p q
  unfold k0_pay5
  refine h.trans ?_
  rw [pay3_eq]
  refine congrArg (fun s => Cert.Spec.gate 128#32 (x3 (ix2 p (0 : Fin 1))) * (s + v24 (ix2 (0 : Fin 1) q))) ?_
  exact Finset.sum_congr rfl fun k _ => by rw [sliceX_apply (by decide : 128 ≤ 512)]; rfl

/-- The second store: what the block held plus expert 1's result. -/
theorem pay6_apply (v34 : FVec Ideal S1024x1024 .f32) (v35 : FVec Ideal S1024x1024 .f32) (i : S1024x1024.Idx) :
    k0_pay6 (F := Ideal) v34 v35 i = v35 i + v34 i := by
  unfold k0_pay6
  exact congrArg (· + v34 i) (congrFun (shapeCast_self v35 Facts₀.shapeCasts_S1024x1024_S1024x1024) i)

/-- The third store: what the block held plus expert 2's gated result. -/
theorem pay7_apply (v1 : FVec Ideal S1024x512 .bf16) (v3 : IVec S1024x1 32) (v40 : FVec Ideal S1x1024x256 .bf16) (v43 : FVec Ideal S1x1024 .f32)
    (v54 : FVec Ideal S1024x1024 .f32) (p q : Fin 1024) :
    k0_pay7 (F := Ideal) v1 v3 v40 v43 v54 (ix2 p q)
      = v54 (ix2 p q) + Cert.Spec.gate 256#32 (v3 (ix2 p (0 : Fin 1)))
          * ((∑ k : Fin 256, v1 (ix2 p (Fin.castLE (by decide : 256 ≤ 512) k)) * v40 (ix3 (0 : Fin 1) q k)) + v43 (ix2 (0 : Fin 1) q)) := by
  have h := expertBlock_apply (K := 256) dot_S1024x256_S1024x256_S1024x1024_1_1_0_0_n_n dims256
    (extractStridedSlice S1024x256 ![0, 0] v1 Facts₀.slices_S1024x512_o0_0_S1024x256) v40 v43 v3 256#32
    Facts₀.shapeCasts_S1x1024x256_S1024x256 Facts₀.shapeCasts_S1x1024_S1024 Facts₀.shapeCasts_S1024_S1x1024
    Facts₀.broadcasts_S1x1024_S1024x1024 Facts₀.natLt_1_32 Facts₀.broadcasts_S1024x1_S1024x1024 p q
  have hs := congrFun (shapeCast_self v54 Facts₀.shapeCasts_S1024x1024_S1024x1024) (ix2 p q)
  unfold k0_pay7
  refine (congrArg₂ (· + ·) hs h).trans ?_
  refine congrArg (fun s => v54 (ix2 p q) + Cert.Spec.gate 256#32 (v3 (ix2 p (0 : Fin 1))) * (s + v43 (ix2 (0 : Fin 1) q))) ?_
  exact Finset.sum_congr rfl fun k _ => by rw [sliceX_apply (by decide : 256 ≤ 512)]

/-- Expert 3's gated result: the full contraction. -/
theorem pay8_apply (v1 : FVec Ideal S1024x512 .bf16) (v3 : IVec S1024x1 32) (v58 : FVec Ideal S1x1024x512 .bf16) (v61 : FVec Ideal S1x1024 .f32)
    (p q : Fin 1024) :
    k0_pay8 (F := Ideal) v1 v3 v58 v61 (ix2 p q)
      = Cert.Spec.gate 512#32 (v3 (ix2 p (0 : Fin 1)))
          * ((∑ k : Fin 512, v1 (ix2 p k) * v58 (ix3 (0 : Fin 1) q k)) + v61 (ix2 (0 : Fin 1) q)) := by
  have h := expertBlock_apply (K := 512) dot_S1024x512_S1024x512_S1024x1024_1_1_0_0_n_n dims512
    v1 v58 v61 v3 512#32
    Facts₀.shapeCasts_S1x1024x512_S1024x512 Facts₀.shapeCasts_S1x1024_S1024 Facts₀.shapeCasts_S1024_S1x1024
    Facts₀.broadcasts_S1x1024_S1024x1024 Facts₀.natLt_1_32 Facts₀.broadcasts_S1024x1_S1024x1024 p q
  unfold k0_pay8
  exact h

/-- The last store: what the block held plus expert 3's result. -/
theorem pay1_apply (v71 : FVec Ideal S1024x1024 .f32) (v72 : FVec Ideal S1024x1024 .f32) (i : S1024x1024.Idx) :
    k0_pay1 (F := Ideal) v71 v72 i = v72 i + v71 i := by
  unfold k0_pay1
  exact congrArg (· + v71 i) (congrFun (shapeCast_self v72 Facts₀.shapeCasts_S1024x1024_S1024x1024) i)

/-- The output block at (p, q): the four experts' gated results, each over its own contraction length, added in order. -/
theorem bodyOut_apply (x0 : Vec Ideal S1024x512 .f32) (x1 : Vec Ideal S4x1024x512 .bf16) (x2 : Vec Ideal S4x1024 .f32) (x3 : Vec Ideal S1024x1 .i32)
    (p q : Fin 1024) :
    bodyOut x0 x1 x2 x3 (ix2 p q)
      = ((blockExpert 64#32 0 128 (by decide) x0 x1 x2 x3 p q + blockExpert 128#32 1 128 (by decide) x0 x1 x2 x3 p q)
          + blockExpert 256#32 2 256 (by decide) x0 x1 x2 x3 p q)
        + blockExpert 512#32 3 512 (by decide) x0 x1 x2 x3 p q := by
  unfold bodyOut
  rw [pay1_apply, pay8_apply, pay7_apply, pay6_apply, pay5_apply, pay4_apply, pay3_eq]
  simp only [pay2_apply, ldW_apply 0 (0 : Fin 4) rfl (by decide : 128 ≤ 512) x1, ldW_apply 1 (1 : Fin 4) rfl (by decide : 128 ≤ 512) x1,
    ldW_apply 2 (2 : Fin 4) rfl (by decide : 256 ≤ 512) x1, ldW_apply 3 (3 : Fin 4) rfl (by decide : 512 ≤ 512) x1,
    ldB_apply 0 (0 : Fin 4) rfl x2, ldB_apply 1 (1 : Fin 4) rfl x2, ldB_apply 2 (2 : Fin 4) rfl x2, ldB_apply 3 (3 : Fin 4) rfl x2]
  rfl

/-- A gated expert computed from the first `K` features is the expert over all 512 features when the mask vanishes from
    feature `K` on: the dropped terms are x · (w · 0) = 0. -/
theorem blockExpert_eq (c : BitVec 32) (g : Fin 4) (K : ℕ) (hK : K ≤ 512)
    (x0 : (⟨2, ![1024, 512]⟩ : Shape).Idx → EReal) (x1 : (⟨3, ![4, 1024, 512]⟩ : Shape).Idx → EReal)
    (x2 : (⟨2, ![4, 1024]⟩ : Shape).Idx → EReal) (x3 : (⟨2, ![1024, 1]⟩ : Shape).Idx → BitVec 32)
    (X : (⟨2, ![65536, 512]⟩ : Shape).Idx → EReal) (FS : (⟨1, ![65536]⟩ : Shape).Idx → BitVec 32)
    (W : (⟨3, ![4, 1024, 512]⟩ : Shape).Idx → EReal) (B : (⟨2, ![4, 1024]⟩ : Shape).Idx → EReal)
    (μ : (⟨2, ![4, 512]⟩ : Shape).Idx → EReal) (hμ : ∀ k : Fin 512, K ≤ k.val → μ (ix2 g k) = 0)
    (p q : Fin 1024) (n : Fin 65536)
    (h0 : ∀ k : Fin 512, x0 (ix2 p k) = X (ix2 n k))
    (h1 : ∀ k : Fin 512, x1 (ix3 g q k) = W (ix3 g q k) * μ (ix2 g k))
    (h2 : x2 (ix2 g q) = B (ix2 g q))
    (h3 : x3 (ix2 p (0 : Fin 1)) = FS (ix1 n)) :
    blockExpert c g K hK x0 x1 x2 x3 p q = Cert.Spec.expert c g X FS W B μ n q := by
  unfold blockExpert Cert.Spec.expert
  rw [h3, h2, Cert.Spec.sum_trunc hK (fun k => X (ix2 n k) * (W (ix3 g q k) * μ (ix2 g k)))
    (fun k hk => by rw [hμ k hk, mul_zero, mul_zero])]
  refine congrArg (fun s => Cert.Spec.gate c (FS (ix1 n)) * (s + B (ix2 g q))) ?_
  exact Finset.sum_congr rfl fun k _ => by rw [h0, h1]

/-- The output block at (p, q) is the routed map at the token the block's row p holds. -/
theorem bodyOut_point (x0 : Vec Ideal S1024x512 .f32) (x1 : Vec Ideal S4x1024x512 .bf16) (x2 : Vec Ideal S4x1024 .f32) (x3 : Vec Ideal S1024x1 .i32)
    (X : (⟨2, ![65536, 512]⟩ : Shape).Idx → EReal) (FS : (⟨1, ![65536]⟩ : Shape).Idx → BitVec 32)
    (W : (⟨3, ![4, 1024, 512]⟩ : Shape).Idx → EReal) (B : (⟨2, ![4, 1024]⟩ : Shape).Idx → EReal)
    (μ : (⟨2, ![4, 512]⟩ : Shape).Idx → EReal)
    (hμ0 : ∀ k : Fin 512, 128 ≤ k.val → μ (ix2 (0 : Fin 4) k) = 0)
    (hμ1 : ∀ k : Fin 512, 128 ≤ k.val → μ (ix2 (1 : Fin 4) k) = 0)
    (hμ2 : ∀ k : Fin 512, 256 ≤ k.val → μ (ix2 (2 : Fin 4) k) = 0)
    (p q : Fin 1024) (n : Fin 65536)
    (h0 : ∀ k : Fin 512, x0 (ix2 p k) = X (ix2 n k))
    (h1 : ∀ (g : Fin 4) (k : Fin 512), x1 (ix3 g q k) = W (ix3 g q k) * μ (ix2 g k))
    (h2 : ∀ g : Fin 4, x2 (ix2 g q) = B (ix2 g q))
    (h3 : x3 (ix2 p (0 : Fin 1)) = FS (ix1 n)) :
    bodyOut x0 x1 x2 x3 (ix2 p q) = Cert.Spec.routedAt X FS W B μ n q := by
  rw [bodyOut_apply]
  unfold Cert.Spec.routedAt
  rw [blockExpert_eq 64#32 0 128 (by decide) x0 x1 x2 x3 X FS W B μ hμ0 p q n h0 (h1 0) (h2 0) h3,
    blockExpert_eq 128#32 1 128 (by decide) x0 x1 x2 x3 X FS W B μ hμ1 p q n h0 (h1 1) (h2 1) h3,
    blockExpert_eq 256#32 2 256 (by decide) x0 x1 x2 x3 X FS W B μ hμ2 p q n h0 (h1 2) (h2 2) h3,
    blockExpert_eq 512#32 3 512 (by decide) x0 x1 x2 x3 X FS W B μ (fun k hk => absurd k.isLt (by omega)) p q n h0 (h1 3) (h2 3) h3]

end Cert.KernelValue

end
-- ==== Proof.KernelHost.lean ====
/-
  The kernel's host side: what the operations before the kernel's region leave in the two arrays the region reads that
  the host wrote, and where each window's block sits.

  Before the region the host builds the 4 x 512 feature mask (feature position k compared with each expert's declared
  size, as a 0/1 float), spreads it over the 1024 output features, multiplies the weight array by it and narrows the
  product to the 16-bit format — over the extended reals the narrowing is the identity, so the masked weight at
  (g, q, k) is w[g, q, k] · mask[g, k] —, and recasts the declared-size vector as a column, whose entry (n, 0) is the
  vector's entry n.  The mask of expert g vanishes at every feature position from the expert's declared size on; the
  three cases used later are stated.  Each window's block index at grid point t is read off the index maps: the token
  windows move with t along the rows, the weight and bias windows stay at block 0.
-/
import proofs.«181010_j4801773437021_2_alg».proof.Proof.Gen.KernelIdeal.Frame
import proofs.«181010_j4801773437021_2_alg».proof.Proof.Spec
import proofs.«181010_j4801773437021_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The kernel's feature mask. -/
abbrev mask : (⟨2, ![4, 512]⟩ : Shape).Idx → EReal :=
  Cert.Spec.featMask Facts₀.bcast_S512_S1x512_1 Facts₀.bcast_S4_S4x1_0 Facts₀.bcast_S1x512_S4x512_0_1 Facts₀.bcast_S4x1_S4x512_0_1 (fun i => lit0 (S4.rowMajor i))

/-- Where the signed comparison of the feature position with the expert's declared size fails, the mask is 0. -/
theorem mask_zero_of_cmp (g : Fin 4) (k : Fin 512)
    (h : IntOp.cmpi .slt (BitVec.ofNat 32 k.val) (lit0 (S4.rowMajor (ix1 g))) = 0#1) : mask (ix2 g k) = 0 := by
  show Cert.Spec.featMask _ _ _ _ (fun i => lit0 (S4.rowMajor i)) (ix2 g k) = 0
  rw [Cert.Spec.featMask_apply, h]
  norm_num

/-- Feature positions from 128 on are not below expert 0's declared size, 64. -/
theorem cmp_zero0 : ∀ k : Fin 512, 128 ≤ k.val →
    IntOp.cmpi .slt (BitVec.ofNat 32 k.val) (lit0 (S4.rowMajor (ix1 (0 : Fin 4)))) = 0#1 := by decide +kernel
/-- Feature positions from 128 on are not below expert 1's declared size, 128. -/
theorem cmp_zero1 : ∀ k : Fin 512, 128 ≤ k.val →
    IntOp.cmpi .slt (BitVec.ofNat 32 k.val) (lit0 (S4.rowMajor (ix1 (1 : Fin 4)))) = 0#1 := by decide +kernel
/-- Feature positions from 256 on are not below expert 2's declared size, 256. -/
theorem cmp_zero2 : ∀ k : Fin 512, 256 ≤ k.val →
    IntOp.cmpi .slt (BitVec.ofNat 32 k.val) (lit0 (S4.rowMajor (ix1 (2 : Fin 4)))) = 0#1 := by decide +kernel

theorem mask_zero0 (k : Fin 512) (hk : 128 ≤ k.val) : mask (ix2 (0 : Fin 4) k) = 0 := mask_zero_of_cmp 0 k (cmp_zero0 k hk)
theorem mask_zero1 (k : Fin 512) (hk : 128 ≤ k.val) : mask (ix2 (1 : Fin 4) k) = 0 := mask_zero_of_cmp 1 k (cmp_zero1 k hk)
theorem mask_zero2 (k : Fin 512) (hk : 256 ≤ k.val) : mask (ix2 (2 : Fin 4) k) = 0 := mask_zero_of_cmp 2 k (cmp_zero2 k hk)

/-- The masked weight the region reads, at expert `g`, output feature `q`, feature `k`: the weight times the mask. -/
theorem V_v10_apply (c : Dev nD) (g : Fin 4) (q : Fin 1024) (k : Fin 512) :
    (V m c main_v10 : S4x1024x512.Idx → EReal) (ix3 g q k)
      = HMul.hMul (α := EReal) (β := EReal) (γ := EReal)
          ((m ((c.tc : Thread nD τ).loc main_arg2) : S4x1024x512.Idx → EReal) (ix3 g q k)) (mask (ix2 g k)) := by
  have e : (V m c main_v10 : S4x1024x512.Idx → EReal)
      = truncf (F := Ideal) (φ := .f32) .bf16
          (mulf (F := Ideal) (φ := .f32) (m (c, Proc.tc.devRef main_arg2) : S4x1024x512.Idx → EReal)
            (broadcastInDim S4x1024x512 ![0, 1, 2] bcast_S4x1x512_S4x1024x512_0_1_2
              (broadcastInDim S4x1x512 ![0, 2] bcast_S4x512_S4x1x512_0_2 mask))) bitsLt_bf16_f32 := by
    dsimp only [Gen.V, Gen.hostOps0]; after_results; rfl
  rw [e]
  refine (truncf_apply (φ := .f32) (ψ := .bf16) _ bitsLt_bf16_f32 (ix3 g q k)).trans
    ((mulf_apply (φ := .f32) _ _ (ix3 g q k)).trans (congrArg (fun p : EReal => _ * p) ?_))
  refine (broadcastInDim_apply _ bcast_S4x1x512_S4x1024x512_0_1_2 _ (ix3 g q k) (ix3 g (0 : Fin 1) k) fun a => ?_).trans ?_
  · match a with
    | ⟨0, _⟩ => rfl
    | ⟨1, _⟩ => rfl
    | ⟨2, _⟩ => rfl
  refine broadcastInDim_apply _ bcast_S4x512_S4x1x512_0_2 _ (ix3 g (0 : Fin 1) k) (ix2 g k) fun a => ?_
  match a with
  | ⟨0, _⟩ => rfl
  | ⟨1, _⟩ => rfl

/-- The declared-size column the region reads, at row `n`: the declared size of token `n`. -/
theorem V_v11_apply (c : Dev nD) (n : Fin 65536) :
    (V m c main_v11 : S65536x1.Idx → BitVec 32) (ix2 n (0 : Fin 1)) = (m ((c.tc : Thread nD τ).loc main_arg1) : S65536.Idx → BitVec 32) (ix1 n) := by
  have e : (V m c main_v11 : S65536x1.Idx → BitVec 32)
      = shapeCast S65536x1 (m (c, Proc.tc.devRef main_arg1) : S65536.Idx → BitVec 32) shapeCasts_S65536_S65536x1 := by
    dsimp only [Gen.V, Gen.hostOps0]; after_results; rfl
  rw [e]
  exact Cert.LibKeepdims.shapeCast_a_a1_apply _ shapeCasts_S65536_S65536x1 n 0

/-- Each window's block index at grid point `t`: the token, declared-size and result windows are at block `t` along the
    rows, the weight and bias windows at block 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

end Cert.KernelValue

end
-- ==== Proof.KernelArrays.lean ====
/-
  From blocks to the array: the kernel's result array after the run is the routed map of the argument arrays.

  Grid point t (64 points) works on tokens 1024 t … 1024 t + 1023: its token block is those rows of x, its block of
  declared sizes the same rows of the sizes column, and the masked weight table and the bias table are read whole at
  every point.  By the body's value at an index, what point t writes back is block t of the routed map; the 64 blocks
  tile the result array, so the array ends at the routed map.
-/
import proofs.«181010_j4801773437021_2_alg».proof.Proof.KernelPay
import proofs.«181010_j4801773437021_2_alg».proof.Proof.KernelHost
import proofs.«181010_j4801773437021_2_alg».proof.Proof.Gen.KernelIdeal.Value

set_option maxRecDepth 16384

noncomputable section

namespace Cert.KernelValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the argument arrays. -/
abbrev result (c : Dev nD) : S65536x1024.Idx → EReal :=
  Cert.Spec.routed (m ((c : Thread nD τ).loc main_arg0)) (m ((c : Thread nD τ).loc main_arg1))
    (m ((c : Thread nD τ).loc main_arg2)) (m ((c : Thread nD τ).loc main_arg3)) mask

/-- What point `t` writes back is block `t` of the result. -/
theorem flushed_eq (c : Dev nD) (t : Fin cfg0.N) :
    (dats m 0 c).flushed 4 t = ((cfg0.win 4).blk t).view.read (Elt Ideal) (result m c) := by
  rw [Cert.KernelIdeal.Value.flushed4_A, out_eq]
  obtain ⟨e00, e01, e10, e11, e12, e20, e21, e30, e31, e40, e41⟩ := idx_facts t
  have ht : t.val < 64 := lt_of_lt_of_eq t.isLt (show cfg0.N = 64 from N_0)
  show (bodyOut (iblk m c 0 t) (iblk m c 1 t) (iblk m c 2 t) (iblk m c 3 t) : S1024x1024.Idx → EReal)
    = fun j : S1024x1024.Idx => result m c (((cfg0.win 4).blk t).view.emb j)
  funext j
  obtain ⟨p, q, rfl⟩ : ∃ (p q : Fin 1024), j = ix2 p q := ⟨j 0, j 1, eq_ix2 j⟩
  have hn : t.val * 1024 + p.val < 65536 := by have := p.isLt; omega
  have hout : ((cfg0.win 4).blk t).view.emb (ix2 p q) = ix2 (⟨t.val * 1024 + p.val, hn⟩ : Fin 65536) q := by
    funext a; apply Fin.ext
    match a with
    | ⟨0, _⟩ => show win0_4.index t (0 : Fin 2) * 1024 + 1 * p.val = t.val * 1024 + p.val; omega
    | ⟨1, _⟩ => show win0_4.index t (1 : Fin 2) * 1024 + 1 * q.val = q.val; omega
  rw [hout]
  show _ = Cert.Spec.routedAt _ _ _ _ mask (⟨t.val * 1024 + p.val, hn⟩ : Fin 65536) q
  refine bodyOut_point (iblk m c 0 t) (iblk m c 1 t) (iblk m c 2 t) (iblk m c 3 t) _ _ _ _ mask mask_zero0 mask_zero1 mask_zero2 p q
    ⟨t.val * 1024 + p.val, hn⟩ ?_ ?_ ?_ ?_
  · intro k
    show V m c main_arg0 (((cfg0.win 0).blk t).view.emb (ix2 p k)) = _
    refine (congrFun (V_main_arg0 m c) _).trans (congrArg _ (funext fun a => Fin.ext ?_))
    match a with
    | ⟨0, _⟩ => show win0_0.index t (0 : Fin 2) * 1024 + 1 * p.val = t.val * 1024 + p.val; omega
    | ⟨1, _⟩ => show win0_0.index t (1 : Fin 2) * 512 + 1 * k.val = k.val; omega
  · intro g k
    show V m c main_v10 (((cfg0.win 1).blk t).view.emb (ix3 g q k)) = _
    have he : ((cfg0.win 1).blk t).view.emb (ix3 g q k) = ix3 g q k := by
      funext a; apply Fin.ext
      match a with
      | ⟨0, _⟩ => show win0_1.index t (0 : Fin 3) * 4 + 1 * g.val = g.val; omega
      | ⟨1, _⟩ => show win0_1.index t (1 : Fin 3) * 1024 + 1 * q.val = q.val; omega
      | ⟨2, _⟩ => show win0_1.index t (2 : Fin 3) * 512 + 1 * k.val = k.val; omega
    rw [he]
    exact V_v10_apply m c g q k
  · intro g
    show V m c main_arg3 (((cfg0.win 2).blk t).view.emb (ix2 g q)) = _
    refine (congrFun (V_main_arg3 m c) _).trans (congrArg _ (funext fun a => Fin.ext ?_))
    match a with
    | ⟨0, _⟩ => show win0_2.index t (0 : Fin 2) * 4 + 1 * g.val = g.val; omega
    | ⟨1, _⟩ => show win0_2.index t (1 : Fin 2) * 1024 + 1 * q.val = q.val; omega
  · show V m c main_v11 (((cfg0.win 3).blk t).view.emb (ix2 p (0 : Fin 1))) = _
    have he : ((cfg0.win 3).blk t).view.emb (ix2 p (0 : Fin 1)) = ix2 (⟨t.val * 1024 + p.val, hn⟩ : Fin 65536) (0 : Fin 1) := by
      funext a; apply Fin.ext
      match a with
      | ⟨0, _⟩ => show win0_3.index t (0 : Fin 2) * 1024 + 1 * p.val = t.val * 1024 + p.val; omega
      | ⟨1, _⟩ => show win0_3.index t (1 : Fin 2) * 1 + 1 * 0 = 0; omega
    rw [he]
    exact V_v11_apply m c _

/-- An index of the result array is in point `t`'s block iff each coordinate is in the block's range on its axis. -/
theorem mem_blk (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v12).slice (win0_4.rect t)).set ↔ _
  rw [View.set_slice_whole, Rect.mem_set_unit]
  exact Iff.rfl

/-- Every index of the result array is in the block of the point that owns its row: token n belongs to point n / 1024. -/
theorem cover (i : S65536x1024.Idx) : ∃ t : Fin cfg0.N, (cfg0.win 4).flush t = true ∧ i ∈ ((cfg0.win 4).blk t).view.set := by
  have hi0 : (i 0).val < 65536 := (i 0).isLt
  have hi1 : (i 1).val < 1024 := (i 1).isLt
  have hN : cfg0.N = 64 := N_0
  obtain ⟨t, htv⟩ : ∃ t : Fin cfg0.N, t.val = (i 0).val / 1024 := ⟨⟨(i 0).val / 1024, by rw [hN]; omega⟩, rfl⟩
  obtain ⟨-, -, -, -, -, -, -, -, -, e40, e41⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e40, htv]; omega
  | ⟨1, _⟩ =>
    show win0_4.index t (1 : Fin 2) * 1024 ≤ (i 1).val ∧ (i 1).val < win0_4.index t (1 : Fin 2) * 1024 + 1024
    rw [e41]; omega

/-- The result array after the run. -/
theorem final (c : Dev nD) : (dats m 0 c).arrAt 4 cfg0.N = result m c :=
  (dats m 0 c).arrAt_eq_of_cover 4 (result m c) (fun t _ => flushed_eq m c t) cover

/-- The kernel's run: every weakly fair execution terminates with the result array at the routed map of the argument
    arrays, and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelValue

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefRun.lean ====
/-
  The reference program as a list of host operations, and its run.

  The reference computes the routed affine map with whole-array operations only: ninety-four of them, in two consecutive
  stretches (sixty, then thirty-four).  Here each stretch is written as a list, the program is shown to be the two lists
  run one after the other, and the general statement about a straight line of host operations is applied: from any
  memory with zero counters every weakly fair execution terminates, and each buffer of the device then holds what the
  operations, folded in order over the launch contents, leave in it.  What that fold leaves in the result buffer is read
  in a later module.
-/
import proofs.«181010_j4801773437021_2_alg».proof.Proof.Gen.ReferenceIdeal
import proofs.«181010_j4801773437021_2_alg».proof.Proof.LibAfterAppend
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The first sixty operations: the feature mask, the zero array, experts 0 and 1 whole, and expert 2 up to its product. -/
abbrev ops0 : List (HloOp τ sig (Elt F)) :=
  [ StableHlo.nullary main_c (fun i => lit0 (S4.rowMajor i)),
    StableHlo.nullary main_v0 (iotaInDim S512 32 0),
    StableHlo.unary main_v0 main_v1 (broadcastInDim S1x512 ![1] bcast_S512_S1x512_1 : (⟨S512, .i32⟩ : BufTy).Contents (Elt F) → (⟨S1x512, .i32⟩ : BufTy).Contents (Elt F)),
    StableHlo.unary main_c main_v2 (broadcastInDim S4x1 ![0] bcast_S4_S4x1_0 : (⟨S4, .i32⟩ : BufTy).Contents (Elt F) → (⟨S4x1, .i32⟩ : BufTy).Contents (Elt F)),
    StableHlo.unary main_v1 main_v3 (broadcastInDim S4x512 ![0, 1] bcast_S1x512_S4x512_0_1 : (⟨S1x512, .i32⟩ : BufTy).Contents (Elt F) → (⟨S4x512, .i32⟩ : BufTy).Contents (Elt F)),
    StableHlo.unary main_v2 main_v4 (broadcastInDim S4x512 ![0, 1] bcast_S4x1_S4x512_0_1 : (⟨S4x1, .i32⟩ : BufTy).Contents (Elt F) → (⟨S4x512, .i32⟩ : BufTy).Contents (Elt F)),
    StableHlo.binary main_v3 main_v4 main_v5 (cmpi .slt : (⟨S4x512, .i32⟩ : BufTy).Contents (Elt F) → (⟨S4x512, .i32⟩ : BufTy).Contents (Elt F) → (⟨S4x512, .i1⟩ : BufTy).Contents (Elt F)),
    StableHlo.unary main_v5 main_v6 (uitofp .f32 : (⟨S4x512, .i1⟩ : BufTy).Contents (Elt F) → (⟨S4x512, .f32⟩ : BufTy).Contents (Elt F)),
    StableHlo.nullary main_cst (constant S_ .f32 0x00000000#32),
    StableHlo.unary main_cst main_v7 (broadcastInDim S65536x1024 ![] bcast_S_S65536x1024 : (⟨S_, .f32⟩ : BufTy).Contents (Elt F) → (⟨S65536x1024, .f32⟩ : BufTy).Contents (Elt F)),
    StableHlo.unary main_arg2 main_v8 ((extractStridedSlice S1x1024x512 ![0, 0, 0] · slices_S4x1024x512_S1x1024x512_0_0_0) : (⟨S4x1024x512, .f32⟩ : BufTy).Contents (Elt F) → (⟨S1x1024x512, .f32⟩ : BufTy).Contents (Elt F)),
    StableHlo.reshape main_v8 main_v9 rfl shapeCasts_S1x1024x512_S1024x512,
    StableHlo.unary main_v6 main_v10 ((extractStridedSlice S1x512 ![0, 0] · slices_S4x512_S1x512_0_0) : (⟨S4x512, .f32⟩ : BufTy).Contents (Elt F) → (⟨S1x512, .f32⟩ : BufTy).Contents (Elt F)),
    StableHlo.reshape main_v10 main_v11 rfl shapeCasts_S1x512_S512,
    StableHlo.unary main_v11 main_v12 (broadcastInDim S1x512 ![1] bcast_S512_S1x512_1 : (⟨S512, .f32⟩ : BufTy).Contents (Elt F) → (⟨S1x512, .f32⟩ : BufTy).Contents (Elt F)),
    StableHlo.unary main_v12 main_v13 (broadcastInDim S1024x512 ![0, 1] bcast_S1x512_S1024x512_0_1 : (⟨S1x512, .f32⟩ : BufTy).Contents (Elt F) → (⟨S1024x512, .f32⟩ : BufTy).Contents (Elt F)),
    StableHlo.binary main_v9 main_v13 main_v14 (mulf : (⟨S1024x512, .f32⟩ : BufTy).Contents (Elt F) → (⟨S1024x512, .f32⟩ : BufTy).Contents (Elt F) → (⟨S1024x512, .f32⟩ : BufTy).Contents (Elt F)),
    StableHlo.binary main_arg0 main_v14 main_v15 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    StableHlo.unary main_arg3 main_v16 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v16 main_v17 rfl shapeCasts_S1x1024_S1024,
    StableHlo.unary main_v17 main_v18 (broadcastInDim S1x1024 ![1] bcast_S1024_S1x1024_1 : (⟨S1024, .f32⟩ : BufTy).Contents (Elt F) → (⟨S1x1024, .f32⟩ : BufTy).Contents (Elt F)),
    StableHlo.unary main_v18 main_v19 (broadcastInDim S65536x1024 ![0, 1] bcast_S1x1024_S65536x1024_0_1 : (⟨S1x1024, .f32⟩ : BufTy).Contents (Elt F) → (⟨S65536x1024, .f32⟩ : BufTy).Contents (Elt F)),
    StableHlo.binary main_v15 main_v19 main_v20 (addf : (⟨S65536x1024, .f32⟩ : BufTy).Contents (Elt F) → (⟨S65536x1024, .f32⟩ : BufTy).Contents (Elt F) → (⟨S65536x1024, .f32⟩ : BufTy).Contents (Elt F)),
    StableHlo.nullary main_c_0 (constantI S_ 32 64#32),
    StableHlo.unary main_c_0 main_v21 (broadcastInDim S65536 ![] bcast_S_S65536 : (⟨S_, .i32⟩ : BufTy).Contents (Elt F) → (⟨S65536, .i32⟩ : BufTy).Contents (Elt F)),
    StableHlo.binary main_arg1 main_v21 main_v22 (cmpi .eq : (⟨S65536, .i32⟩ : BufTy).Contents (Elt F) → (⟨S65536, .i32⟩ : BufTy).Contents (Elt F) → (⟨S65536, .i1⟩ : BufTy).Contents (Elt F)),
    StableHlo.unary main_v22 main_v23 (uitofp .f32 : (⟨S65536, .i1⟩ : BufTy).Contents (Elt F) → (⟨S65536, .f32⟩ : BufTy).Contents (Elt F)),
    StableHlo.unary main_v23 main_v24 (broadcastInDim S65536x1 ![0] bcast_S65536_S65536x1_0 : (⟨S65536, .f32⟩ : BufTy).Contents (Elt F) → (⟨S65536x1, .f32⟩ : BufTy).Contents (Elt F)),
    StableHlo.unary main_v24 main_v25 (broadcastInDim S65536x1024 ![0, 1] bcast_S65536x1_S65536x1024_0_1 : (⟨S65536x1, .f32⟩ : BufTy).Contents (Elt F) → (⟨S65536x1024, .f32⟩ : BufTy).Contents (Elt F)),
    StableHlo.binary main_v25 main_v20 main_v26 (mulf : (⟨S65536x1024, .f32⟩ : BufTy).Contents (Elt F) → (⟨S65536x1024, .f32⟩ : BufTy).Contents (Elt F) → (⟨S65536x1024, .f32⟩ : BufTy).Contents (Elt F)),
    StableHlo.binary main_v7 main_v26 main_v27 (addf : (⟨S65536x1024, .f32⟩ : BufTy).Contents (Elt F) → (⟨S65536x1024, .f32⟩ : BufTy).Contents (Elt F) → (⟨S65536x1024, .f32⟩ : BufTy).Contents (Elt F)),
    StableHlo.unary main_arg2 main_v28 ((extractStridedSlice S1x1024x512 ![1, 0, 0] · slices_S4x1024x512_S1x1024x512_1_0_0) : (⟨S4x1024x512, .f32⟩ : BufTy).Contents (Elt F) → (⟨S1x1024x512, .f32⟩ : BufTy).Contents (Elt F)),
    StableHlo.reshape main_v28 main_v29 rfl shapeCasts_S1x1024x512_S1024x512,
    StableHlo.unary main_v6 main_v30 ((extractStridedSlice S1x512 ![1, 0] · slices_S4x512_S1x512_1_0) : (⟨S4x512, .f32⟩ : BufTy).Contents (Elt F) → (⟨S1x512, .f32⟩ : BufTy).Contents (Elt F)),
    StableHlo.reshape main_v30 main_v31 rfl shapeCasts_S1x512_S512,
    StableHlo.unary main_v31 main_v32 (broadcastInDim S1x512 ![1] bcast_S512_S1x512_1 : (⟨S512, .f32⟩ : BufTy).Contents (Elt F) → (⟨S1x512, .f32⟩ : BufTy).Contents (Elt F)),
    StableHlo.unary main_v32 main_v33 (broadcastInDim S1024x512 ![0, 1] bcast_S1x512_S1024x512_0_1 : (⟨S1x512, .f32⟩ : BufTy).Contents (Elt F) → (⟨S1024x512, .f32⟩ : BufTy).Contents (Elt F)),
    StableHlo.binary main_v29 main_v33 main_v34 (mulf : (⟨S1024x512, .f32⟩ : BufTy).Contents (Elt F) → (⟨S1024x512, .f32⟩ : BufTy).Contents (Elt F) → (⟨S1024x512, .f32⟩ : BufTy).Contents (Elt F)),
    StableHlo.binary main_arg0 main_v34 main_v35 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    StableHlo.unary main_arg3 main_v36 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v36 main_v37 rfl shapeCasts_S1x1024_S1024,
    StableHlo.unary main_v37 main_v38 (broadcastInDim S1x1024 ![1] bcast_S1024_S1x1024_1 : (⟨S1024, .f32⟩ : BufTy).Contents (Elt F) → (⟨S1x1024, .f32⟩ : BufTy).Contents (Elt F)),
    StableHlo.unary main_v38 main_v39 (broadcastInDim S65536x1024 ![0, 1] bcast_S1x1024_S65536x1024_0_1 : (⟨S1x1024, .f32⟩ : BufTy).Contents (Elt F) → (⟨S65536x1024, .f32⟩ : BufTy).Contents (Elt F)),
    StableHlo.binary main_v35 main_v39 main_v40 (addf : (⟨S65536x1024, .f32⟩ : BufTy).Contents (Elt F) → (⟨S65536x1024, .f32⟩ : BufTy).Contents (Elt F) → (⟨S65536x1024, .f32⟩ : BufTy).Contents (Elt F)),
    StableHlo.nullary main_c_1 (constantI S_ 32 128#32),
    StableHlo.unary main_c_1 main_v41 (broadcastInDim S65536 ![] bcast_S_S65536 : (⟨S_, .i32⟩ : BufTy).Contents (Elt F) → (⟨S65536, .i32⟩ : BufTy).Contents (Elt F)),
    StableHlo.binary main_arg1 main_v41 main_v42 (cmpi .eq : (⟨S65536, .i32⟩ : BufTy).Contents (Elt F) → (⟨S65536, .i32⟩ : BufTy).Contents (Elt F) → (⟨S65536, .i1⟩ : BufTy).Contents (Elt F)),
    StableHlo.unary main_v42 main_v43 (uitofp .f32 : (⟨S65536, .i1⟩ : BufTy).Contents (Elt F) → (⟨S65536, .f32⟩ : BufTy).Contents (Elt F)),
    StableHlo.unary main_v43 main_v44 (broadcastInDim S65536x1 ![0] bcast_S65536_S65536x1_0 : (⟨S65536, .f32⟩ : BufTy).Contents (Elt F) → (⟨S65536x1, .f32⟩ : BufTy).Contents (Elt F)),
    StableHlo.unary main_v44 main_v45 (broadcastInDim S65536x1024 ![0, 1] bcast_S65536x1_S65536x1024_0_1 : (⟨S65536x1, .f32⟩ : BufTy).Contents (Elt F) → (⟨S65536x1024, .f32⟩ : BufTy).Contents (Elt F)),
    StableHlo.binary main_v45 main_v40 main_v46 (mulf : (⟨S65536x1024, .f32⟩ : BufTy).Contents (Elt F) → (⟨S65536x1024, .f32⟩ : BufTy).Contents (Elt F) → (⟨S65536x1024, .f32⟩ : BufTy).Contents (Elt F)),
    StableHlo.binary main_v27 main_v46 main_v47 (addf : (⟨S65536x1024, .f32⟩ : BufTy).Contents (Elt F) → (⟨S65536x1024, .f32⟩ : BufTy).Contents (Elt F) → (⟨S65536x1024, .f32⟩ : BufTy).Contents (Elt F)),
    StableHlo.unary main_arg2 main_v48 ((extractStridedSlice S1x1024x512 ![2, 0, 0] · slices_S4x1024x512_S1x1024x512_2_0_0) : (⟨S4x1024x512, .f32⟩ : BufTy).Contents (Elt F) → (⟨S1x1024x512, .f32⟩ : BufTy).Contents (Elt F)),
    StableHlo.reshape main_v48 main_v49 rfl shapeCasts_S1x1024x512_S1024x512,
    StableHlo.unary main_v6 main_v50 ((extractStridedSlice S1x512 ![2, 0] · slices_S4x512_S1x512_2_0) : (⟨S4x512, .f32⟩ : BufTy).Contents (Elt F) → (⟨S1x512, .f32⟩ : BufTy).Contents (Elt F)),
    StableHlo.reshape main_v50 main_v51 rfl shapeCasts_S1x512_S512,
    StableHlo.unary main_v51 main_v52 (broadcastInDim S1x512 ![1] bcast_S512_S1x512_1 : (⟨S512, .f32⟩ : BufTy).Contents (Elt F) → (⟨S1x512, .f32⟩ : BufTy).Contents (Elt F)),
    StableHlo.unary main_v52 main_v53 (broadcastInDim S1024x512 ![0, 1] bcast_S1x512_S1024x512_0_1 : (⟨S1x512, .f32⟩ : BufTy).Contents (Elt F) → (⟨S1024x512, .f32⟩ : BufTy).Contents (Elt F)),
    StableHlo.binary main_v49 main_v53 main_v54 (mulf : (⟨S1024x512, .f32⟩ : BufTy).Contents (Elt F) → (⟨S1024x512, .f32⟩ : BufTy).Contents (Elt F) → (⟨S1024x512, .f32⟩ : BufTy).Contents (Elt F)),
    StableHlo.binary main_arg0 main_v54 main_v55 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)) ]

/-- The last thirty-four operations: the rest of expert 2, and expert 3 whole. -/
abbrev ops1 : List (HloOp τ sig (Elt F)) :=
  [ StableHlo.unary main_arg3 main_v56 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v56 main_v57 rfl shapeCasts_S1x1024_S1024,
    StableHlo.unary main_v57 main_v58 (broadcastInDim S1x1024 ![1] bcast_S1024_S1x1024_1 : (⟨S1024, .f32⟩ : BufTy).Contents (Elt F) → (⟨S1x1024, .f32⟩ : BufTy).Contents (Elt F)),
    StableHlo.unary main_v58 main_v59 (broadcastInDim S65536x1024 ![0, 1] bcast_S1x1024_S65536x1024_0_1 : (⟨S1x1024, .f32⟩ : BufTy).Contents (Elt F) → (⟨S65536x1024, .f32⟩ : BufTy).Contents (Elt F)),
    StableHlo.binary main_v55 main_v59 main_v60 (addf : (⟨S65536x1024, .f32⟩ : BufTy).Contents (Elt F) → (⟨S65536x1024, .f32⟩ : BufTy).Contents (Elt F) → (⟨S65536x1024, .f32⟩ : BufTy).Contents (Elt F)),
    StableHlo.nullary main_c_2 (constantI S_ 32 256#32),
    StableHlo.unary main_c_2 main_v61 (broadcastInDim S65536 ![] bcast_S_S65536 : (⟨S_, .i32⟩ : BufTy).Contents (Elt F) → (⟨S65536, .i32⟩ : BufTy).Contents (Elt F)),
    StableHlo.binary main_arg1 main_v61 main_v62 (cmpi .eq : (⟨S65536, .i32⟩ : BufTy).Contents (Elt F) → (⟨S65536, .i32⟩ : BufTy).Contents (Elt F) → (⟨S65536, .i1⟩ : BufTy).Contents (Elt F)),
    StableHlo.unary main_v62 main_v63 (uitofp .f32 : (⟨S65536, .i1⟩ : BufTy).Contents (Elt F) → (⟨S65536, .f32⟩ : BufTy).Contents (Elt F)),
    StableHlo.unary main_v63 main_v64 (broadcastInDim S65536x1 ![0] bcast_S65536_S65536x1_0 : (⟨S65536, .f32⟩ : BufTy).Contents (Elt F) → (⟨S65536x1, .f32⟩ : BufTy).Contents (Elt F)),
    StableHlo.unary main_v64 main_v65 (broadcastInDim S65536x1024 ![0, 1] bcast_S65536x1_S65536x1024_0_1 : (⟨S65536x1, .f32⟩ : BufTy).Contents (Elt F) → (⟨S65536x1024, .f32⟩ : BufTy).Contents (Elt F)),
    StableHlo.binary main_v65 main_v60 main_v66 (mulf : (⟨S65536x1024, .f32⟩ : BufTy).Contents (Elt F) → (⟨S65536x1024, .f32⟩ : BufTy).Contents (Elt F) → (⟨S65536x1024, .f32⟩ : BufTy).Contents (Elt F)),
    StableHlo.binary main_v47 main_v66 main_v67 (addf : (⟨S65536x1024, .f32⟩ : BufTy).Contents (Elt F) → (⟨S65536x1024, .f32⟩ : BufTy).Contents (Elt F) → (⟨S65536x1024, .f32⟩ : BufTy).Contents (Elt F)),
    StableHlo.unary main_arg2 main_v68 ((extractStridedSlice S1x1024x512 ![3, 0, 0] · slices_S4x1024x512_S1x1024x512_3_0_0) : (⟨S4x1024x512, .f32⟩ : BufTy).Contents (Elt F) → (⟨S1x1024x512, .f32⟩ : BufTy).Contents (Elt F)),
    StableHlo.reshape main_v68 main_v69 rfl shapeCasts_S1x1024x512_S1024x512,
    StableHlo.unary main_v6 main_v70 ((extractStridedSlice S1x512 ![3, 0] · slices_S4x512_S1x512_3_0) : (⟨S4x512, .f32⟩ : BufTy).Contents (Elt F) → (⟨S1x512, .f32⟩ : BufTy).Contents (Elt F)),
    StableHlo.reshape main_v70 main_v71 rfl shapeCasts_S1x512_S512,
    StableHlo.unary main_v71 main_v72 (broadcastInDim S1x512 ![1] bcast_S512_S1x512_1 : (⟨S512, .f32⟩ : BufTy).Contents (Elt F) → (⟨S1x512, .f32⟩ : BufTy).Contents (Elt F)),
    StableHlo.unary main_v72 main_v73 (broadcastInDim S1024x512 ![0, 1] bcast_S1x512_S1024x512_0_1 : (⟨S1x512, .f32⟩ : BufTy).Contents (Elt F) → (⟨S1024x512, .f32⟩ : BufTy).Contents (Elt F)),
    StableHlo.binary main_v69 main_v73 main_v74 (mulf : (⟨S1024x512, .f32⟩ : BufTy).Contents (Elt F) → (⟨S1024x512, .f32⟩ : BufTy).Contents (Elt F) → (⟨S1024x512, .f32⟩ : BufTy).Contents (Elt F)),
    StableHlo.binary main_arg0 main_v74 main_v75 ((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)),
    StableHlo.unary main_arg3 main_v76 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v76 main_v77 rfl shapeCasts_S1x1024_S1024,
    StableHlo.unary main_v77 main_v78 (broadcastInDim S1x1024 ![1] bcast_S1024_S1x1024_1 : (⟨S1024, .f32⟩ : BufTy).Contents (Elt F) → (⟨S1x1024, .f32⟩ : BufTy).Contents (Elt F)),
    StableHlo.unary main_v78 main_v79 (broadcastInDim S65536x1024 ![0, 1] bcast_S1x1024_S65536x1024_0_1 : (⟨S1x1024, .f32⟩ : BufTy).Contents (Elt F) → (⟨S65536x1024, .f32⟩ : BufTy).Contents (Elt F)),
    StableHlo.binary main_v75 main_v79 main_v80 (addf : (⟨S65536x1024, .f32⟩ : BufTy).Contents (Elt F) → (⟨S65536x1024, .f32⟩ : BufTy).Contents (Elt F) → (⟨S65536x1024, .f32⟩ : BufTy).Contents (Elt F)),
    StableHlo.nullary main_c_3 (constantI S_ 32 512#32),
    StableHlo.unary main_c_3 main_v81 (broadcastInDim S65536 ![] bcast_S_S65536 : (⟨S_, .i32⟩ : BufTy).Contents (Elt F) → (⟨S65536, .i32⟩ : BufTy).Contents (Elt F)),
    StableHlo.binary main_arg1 main_v81 main_v82 (cmpi .eq : (⟨S65536, .i32⟩ : BufTy).Contents (Elt F) → (⟨S65536, .i32⟩ : BufTy).Contents (Elt F) → (⟨S65536, .i1⟩ : BufTy).Contents (Elt F)),
    StableHlo.unary main_v82 main_v83 (uitofp .f32 : (⟨S65536, .i1⟩ : BufTy).Contents (Elt F) → (⟨S65536, .f32⟩ : BufTy).Contents (Elt F)),
    StableHlo.unary main_v83 main_v84 (broadcastInDim S65536x1 ![0] bcast_S65536_S65536x1_0 : (⟨S65536, .f32⟩ : BufTy).Contents (Elt F) → (⟨S65536x1, .f32⟩ : BufTy).Contents (Elt F)),
    StableHlo.unary main_v84 main_v85 (broadcastInDim S65536x1024 ![0, 1] bcast_S65536x1_S65536x1024_0_1 : (⟨S65536x1, .f32⟩ : BufTy).Contents (Elt F) → (⟨S65536x1024, .f32⟩ : BufTy).Contents (Elt F)),
    StableHlo.binary main_v85 main_v80 main_v86 (mulf : (⟨S65536x1024, .f32⟩ : BufTy).Contents (Elt F) → (⟨S65536x1024, .f32⟩ : BufTy).Contents (Elt F) → (⟨S65536x1024, .f32⟩ : BufTy).Contents (Elt F)),
    StableHlo.binary main_v67 main_v86 main_v87 (addf : (⟨S65536x1024, .f32⟩ : BufTy).Contents (Elt F) → (⟨S65536x1024, .f32⟩ : BufTy).Contents (Elt F) → (⟨S65536x1024, .f32⟩ : BufTy).Contents (Elt F)) ]

/-- All ninety-four operations, in order. -/
abbrev ops : List (HloOp τ sig (Elt F)) := ops0 ++ ops1

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
/-- The program is its two stretches run one after the other. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., unary_bufs_sub .., nullary_bufs_sub .., unary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub ..⟩
set_option maxRecDepth 8192 in
theorem ops1_sub : (ops1 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub ..⟩
/-- Every operation touches buffers of the device only. -/
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
/-- On every device, for any float values, from any memory with zero counters: every weakly fair execution of the
    program terminates, and each buffer then holds what the operations, folded in order over the device's launch
    contents, leave in it. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ (c : Dev nD) (b : Ref sig .tc),
      r.2.mem ((c.tc : Thread nD τ).loc b) = after (ops1 (F := F)) (after (ops0 (F := F)) (launchContents m c)) (Proc.devRef .tc b) :=
  (θ_run defs _ _).mono (fun _ h c b => (h c b).trans (by rw [Cert.Lib.after_append]))
    (run_seq scopedRefs_eq scopedSems_eq defs main (fun _ => ops) main_eq (fun _ => ops_sub) m ρ)

end Cert.RefValue

end
-- ==== Proof.RefTerm.lean ====
/-
  The reference's result as one whole-array term of the four argument arrays.

  For one expert the reference forms, on whole arrays: the gate (the declared-size vector compared for equality with the
  expert's size, as a 0/1 float, spread over the output features); the masked weight (the expert's slab of the weight
  array times the expert's row of the feature mask, spread over the output features); the product of the tokens with the
  masked weight, contracting the feature axis of both; the expert's bias row spread over the tokens; and gate times
  (product plus bias).  The result is the zero array plus the four experts' terms, added in order.  Here those terms are
  written once, for any expert, with the operations in the order the program applies them, and the contents the program's
  operations leave in the result buffer are shown to be that term of the launch contents of the four arguments, which
  the operations leave unchanged.
-/
import proofs.«181010_j4801773437021_2_alg».proof.Proof.RefRun
import proofs.«181010_j4801773437021_2_alg».proof.Proof.Spec

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The 4 x 512 feature mask, as the reference's first operations build it from the table of declared sizes. -/
def refMask : (⟨S4x512, .f32⟩ : BufTy).Contents (Elt F) :=
  (uitofp .f32 : (⟨S4x512, .i1⟩ : BufTy).Contents (Elt F) → (⟨S4x512, .f32⟩ : BufTy).Contents (Elt F))
    ((cmpi .slt : (⟨S4x512, .i32⟩ : BufTy).Contents (Elt F) → (⟨S4x512, .i32⟩ : BufTy).Contents (Elt F) → (⟨S4x512, .i1⟩ : BufTy).Contents (Elt F))
      ((broadcastInDim S4x512 ![0, 1] bcast_S1x512_S4x512_0_1 : (⟨S1x512, .i32⟩ : BufTy).Contents (Elt F) → (⟨S4x512, .i32⟩ : BufTy).Contents (Elt F))
        ((broadcastInDim S1x512 ![1] bcast_S512_S1x512_1 : (⟨S512, .i32⟩ : BufTy).Contents (Elt F) → (⟨S1x512, .i32⟩ : BufTy).Contents (Elt F)) (iotaInDim S512 32 0)))
      ((broadcastInDim S4x512 ![0, 1] bcast_S4x1_S4x512_0_1 : (⟨S4x1, .i32⟩ : BufTy).Contents (Elt F) → (⟨S4x512, .i32⟩ : BufTy).Contents (Elt F))
        ((broadcastInDim S4x1 ![0] bcast_S4_S4x1_0 : (⟨S4, .i32⟩ : BufTy).Contents (Elt F) → (⟨S4x1, .i32⟩ : BufTy).Contents (Elt F)) (fun i => lit0 (S4.rowMajor i)))))

/-- The gate of the expert with declared size `c`, spread over the output features: 1 on the rows of the tokens that
    declare `c`, 0 on the others. -/
def refGate (c : BitVec 32) (fs : (⟨S65536, .i32⟩ : BufTy).Contents (Elt F)) : (⟨S65536x1024, .f32⟩ : BufTy).Contents (Elt F) :=
  (broadcastInDim S65536x1024 ![0, 1] bcast_S65536x1_S65536x1024_0_1 : (⟨S65536x1, .f32⟩ : BufTy).Contents (Elt F) → (⟨S65536x1024, .f32⟩ : BufTy).Contents (Elt F))
    ((broadcastInDim S65536x1 ![0] bcast_S65536_S65536x1_0 : (⟨S65536, .f32⟩ : BufTy).Contents (Elt F) → (⟨S65536x1, .f32⟩ : BufTy).Contents (Elt F))
      ((uitofp .f32 : (⟨S65536, .i1⟩ : BufTy).Contents (Elt F) → (⟨S65536, .f32⟩ : BufTy).Contents (Elt F))
        ((cmpi .eq : (⟨S65536, .i32⟩ : BufTy).Contents (Elt F) → (⟨S65536, .i32⟩ : BufTy).Contents (Elt F) → (⟨S65536, .i1⟩ : BufTy).Contents (Elt F)) fs
          ((broadcastInDim S65536 ![] bcast_S_S65536 : (⟨S_, .i32⟩ : BufTy).Contents (Elt F) → (⟨S65536, .i32⟩ : BufTy).Contents (Elt F)) (constantI S_ 32 c)))))

/-- The expert's slab of the weight array (the slab at offsets `off3`) times the expert's row of the mask (the row at
    offsets `off2`) spread over the output features. -/
def refWeight (off3 : Fin S4x1024x512.rank → Nat) (off2 : Fin S4x512.rank → Nat)
    (hw : S4x1024x512.Slices off3 S1x1024x512) (hμ : S4x512.Slices off2 S1x512)
    (w : (⟨S4x1024x512, .f32⟩ : BufTy).Contents (Elt F)) (μ : (⟨S4x512, .f32⟩ : BufTy).Contents (Elt F)) : (⟨S1024x512, .f32⟩ : BufTy).Contents (Elt F) :=
  (mulf : (⟨S1024x512, .f32⟩ : BufTy).Contents (Elt F) → (⟨S1024x512, .f32⟩ : BufTy).Contents (Elt F) → (⟨S1024x512, .f32⟩ : BufTy).Contents (Elt F))
    (shapeCast S1024x512 (((extractStridedSlice S1x1024x512 off3 · hw) : (⟨S4x1024x512, .f32⟩ : BufTy).Contents (Elt F) → (⟨S1x1024x512, .f32⟩ : BufTy).Contents (Elt F)) w) shapeCasts_S1x1024x512_S1024x512)
    ((broadcastInDim S1024x512 ![0, 1] bcast_S1x512_S1024x512_0_1 : (⟨S1x512, .f32⟩ : BufTy).Contents (Elt F) → (⟨S1024x512, .f32⟩ : BufTy).Contents (Elt F))
      ((broadcastInDim S1x512 ![1] bcast_S512_S1x512_1 : (⟨S512, .f32⟩ : BufTy).Contents (Elt F) → (⟨S1x512, .f32⟩ : BufTy).Contents (Elt F))
        (shapeCast S512 (((extractStridedSlice S1x512 off2 · hμ) : (⟨S4x512, .f32⟩ : BufTy).Contents (Elt F) → (⟨S1x512, .f32⟩ : BufTy).Contents (Elt F)) μ) shapeCasts_S1x512_S512)))

/-- The expert's row of the bias array (the row at offsets `off2`) spread over the tokens. -/
def refBias (off2 : Fin S4x1024.rank → Nat) (hb : S4x1024.Slices off2 S1x1024) (b : (⟨S4x1024, .f32⟩ : BufTy).Contents (Elt F)) : (⟨S65536x1024, .f32⟩ : BufTy).Contents (Elt F) :=
  (broadcastInDim S65536x1024 ![0, 1] bcast_S1x1024_S65536x1024_0_1 : (⟨S1x1024, .f32⟩ : BufTy).Contents (Elt F) → (⟨S65536x1024, .f32⟩ : BufTy).Contents (Elt F))
    ((broadcastInDim S1x1024 ![1] bcast_S1024_S1x1024_1 : (⟨S1024, .f32⟩ : BufTy).Contents (Elt F) → (⟨S1x1024, .f32⟩ : BufTy).Contents (Elt F))
      (shapeCast S1024 (((extractStridedSlice S1x1024 off2 · hb) : (⟨S4x1024, .f32⟩ : BufTy).Contents (Elt F) → (⟨S1x1024, .f32⟩ : BufTy).Contents (Elt F)) b) shapeCasts_S1x1024_S1024))

/-- One expert's term: its gate times (tokens times masked weight, plus bias). -/
def refExpert (off3 : Fin S4x1024x512.rank → Nat) (off2 : Fin S4x512.rank → Nat)
    (hw : S4x1024x512.Slices off3 S1x1024x512) (hμ : S4x512.Slices off2 S1x512) (hb : S4x1024.Slices off2 S1x1024) (c : BitVec 32)
    (x : (⟨S65536x512, .f32⟩ : BufTy).Contents (Elt F)) (fs : (⟨S65536, .i32⟩ : BufTy).Contents (Elt F)) (w : (⟨S4x1024x512, .f32⟩ : BufTy).Contents (Elt F)) (b : (⟨S4x1024, .f32⟩ : BufTy).Contents (Elt F))
    (μ : (⟨S4x512, .f32⟩ : BufTy).Contents (Elt F)) : (⟨S65536x1024, .f32⟩ : BufTy).Contents (Elt F) :=
  (mulf : (⟨S65536x1024, .f32⟩ : BufTy).Contents (Elt F) → (⟨S65536x1024, .f32⟩ : BufTy).Contents (Elt F) → (⟨S65536x1024, .f32⟩ : BufTy).Contents (Elt F))
    (refGate c fs)
    ((addf : (⟨S65536x1024, .f32⟩ : BufTy).Contents (Elt F) → (⟨S65536x1024, .f32⟩ : BufTy).Contents (Elt F) → (⟨S65536x1024, .f32⟩ : BufTy).Contents (Elt F))
      (((fun l r => Host.dotGeneral dot_S65536x512_S1024x512_S65536x1024_1_1_0_0_n_n none l r) : (⟨S65536x512, .f32⟩ : BufTy).Contents (Elt F) → (⟨S1024x512, .f32⟩ : BufTy).Contents (Elt F) → (⟨S65536x1024, .f32⟩ : BufTy).Contents (Elt F)) x
        (refWeight off3 off2 hw hμ w μ))
      (refBias off2 hb b))

/-- The reference's result: the zero array plus the four experts' terms, added in order. -/
def refOut (x : (⟨S65536x512, .f32⟩ : BufTy).Contents (Elt F)) (fs : (⟨S65536, .i32⟩ : BufTy).Contents (Elt F)) (w : (⟨S4x1024x512, .f32⟩ : BufTy).Contents (Elt F)) (b : (⟨S4x1024, .f32⟩ : BufTy).Contents (Elt F)) : (⟨S65536x1024, .f32⟩ : BufTy).Contents (Elt F) :=
  (addf : (⟨S65536x1024, .f32⟩ : BufTy).Contents (Elt F) → (⟨S65536x1024, .f32⟩ : BufTy).Contents (Elt F) → (⟨S65536x1024, .f32⟩ : BufTy).Contents (Elt F))
    ((addf : (⟨S65536x1024, .f32⟩ : BufTy).Contents (Elt F) → (⟨S65536x1024, .f32⟩ : BufTy).Contents (Elt F) → (⟨S65536x1024, .f32⟩ : BufTy).Contents (Elt F))
      ((addf : (⟨S65536x1024, .f32⟩ : BufTy).Contents (Elt F) → (⟨S65536x1024, .f32⟩ : BufTy).Contents (Elt F) → (⟨S65536x1024, .f32⟩ : BufTy).Contents (Elt F))
        ((addf : (⟨S65536x1024, .f32⟩ : BufTy).Contents (Elt F) → (⟨S65536x1024, .f32⟩ : BufTy).Contents (Elt F) → (⟨S65536x1024, .f32⟩ : BufTy).Contents (Elt F))
          ((broadcastInDim S65536x1024 ![] bcast_S_S65536x1024 : (⟨S_, .f32⟩ : BufTy).Contents (Elt F) → (⟨S65536x1024, .f32⟩ : BufTy).Contents (Elt F)) (constant S_ .f32 0x00000000#32))
          (refExpert ![0, 0, 0] ![0, 0] slices_S4x1024x512_S1x1024x512_0_0_0 slices_S4x512_S1x512_0_0 slices_S4x1024_S1x1024_0_0 64#32 x fs w b refMask))
        (refExpert ![1, 0, 0] ![1, 0] slices_S4x1024x512_S1x1024x512_1_0_0 slices_S4x512_S1x512_1_0 slices_S4x1024_S1x1024_1_0 128#32 x fs w b refMask))
      (refExpert ![2, 0, 0] ![2, 0] slices_S4x1024x512_S1x1024x512_2_0_0 slices_S4x512_S1x512_2_0 slices_S4x1024_S1x1024_2_0 256#32 x fs w b refMask))
    (refExpert ![3, 0, 0] ![3, 0] slices_S4x1024x512_S1x1024x512_3_0_0 slices_S4x512_S1x512_3_0 slices_S4x1024_S1x1024_3_0 512#32 x fs w b refMask)

set_option maxRecDepth 8192 in
set_option maxHeartbeats 40000000 in
/-- What the ninety-four operations leave in the result buffer, from any contents `V` of the device's buffers: the
    reference's term of `V`'s four argument buffers. -/
theorem after_out (V : Valuation τ sig (Elt F)) :
    after (ops1 (F := F)) (after (ops0 (F := F)) V) (Proc.devRef .tc main_v87)
      = refOut (V (Proc.devRef .tc main_arg0)) (V (Proc.devRef .tc main_arg1)) (V (Proc.devRef .tc main_arg2)) (V (Proc.devRef .tc main_arg3)) := by
  after_results_simp <;> rfl

set_option maxRecDepth 8192 in
set_option maxHeartbeats 40000000 in
/-- No operation writes argument 0: its buffer holds at the end what it held at the start. -/
theorem after_arg0 (V : Valuation τ sig (Elt F)) :
    after (ops1 (F := F)) (after (ops0 (F := F)) V) (Proc.devRef .tc main_arg0) = V (Proc.devRef .tc main_arg0) := by
  after_results_simp

set_option maxRecDepth 8192 in
set_option maxHeartbeats 40000000 in
/-- No operation writes argument 1: its buffer holds at the end what it held at the start. -/
theorem after_arg1 (V : Valuation τ sig (Elt F)) :
    after (ops1 (F := F)) (after (ops0 (F := F)) V) (Proc.devRef .tc main_arg1) = V (Proc.devRef .tc main_arg1) := by
  after_results_simp

set_option maxRecDepth 8192 in
set_option maxHeartbeats 40000000 in
/-- No operation writes argument 2: its buffer holds at the end what it held at the start. -/
theorem after_arg2 (V : Valuation τ sig (Elt F)) :
    after (ops1 (F := F)) (after (ops0 (F := F)) V) (Proc.devRef .tc main_arg2) = V (Proc.devRef .tc main_arg2) := by
  after_results_simp

set_option maxRecDepth 8192 in
set_option maxHeartbeats 40000000 in
/-- No operation writes argument 3: its buffer holds at the end what it held at the start. -/
theorem after_arg3 (V : Valuation τ sig (Elt F)) :
    after (ops1 (F := F)) (after (ops0 (F := F)) V) (Proc.devRef .tc main_arg3) = V (Proc.devRef .tc main_arg3) := by
  after_results_simp

end Cert.RefValue

end
-- ==== Proof.RefRead.lean ====
/-
  The reference's result read at an index: the routed affine map.

  At token n and output feature o each expert's whole-array term is its gate at the token times the sum over the
  features k of x[n, k] · (w[g, o, k] · mask[g, k]) plus its bias b[g, o]: a spread array reads the one entry it
  spreads, a slab or a row cut at offset g reads the array at g, the product of the tokens with the masked weight
  contracting the feature axis of both is the finite sum of the products, and the pointwise operations act entry by
  entry.  The zero array contributes 0.  So the reference's result buffer holds the specification's routed map of the
  four argument arrays, at the feature mask the reference itself builds from its table of declared sizes; with the run of
  the operations this is the statement about every execution of the reference.
-/
import proofs.«181010_j4801773437021_2_alg».proof.Proof.RefTerm
import proofs.«181010_j4801773437021_2_alg».proof.Proof.LibRowsDot
import proofs.«181010_j4801773437021_2_alg».proof.Proof.Spec
import Idealize.ShloMosaic.Lib.ValueLayout
import Idealize.ShloMosaic.Lib.Pipeline.Value

noncomputable section

namespace Cert.RefValue

open Cert.ReferenceIdeal Cert.ReferenceIdeal.Gen Idealize.ShloMosaic Idealize.ShloMosaic.TcCoe Idealize.SL.Sem Idealize.ShloMosaic.StableHlo

/-- The reference's feature mask. -/
abbrev mask : (⟨2, ![4, 512]⟩ : Shape).Idx → EReal :=
  Cert.Spec.featMask Facts₀.bcast_S512_S1x512_1 Facts₀.bcast_S4_S4x1_0 Facts₀.bcast_S1x512_S4x512_0_1 Facts₀.bcast_S4x1_S4x512_0_1 (fun i => lit0 (S4.rowMajor i))

/-- The mask the reference's operations build is the specification's, at the reference's table of declared sizes. -/
theorem refMask_eq : refMask (F := Ideal) = mask := rfl

open Idealize.ShloMosaic.ValueIdx

/-- The gate array at token `n`, output feature `o`: the 0/1 gate of the token's declared size. -/
theorem refGate_apply (c : BitVec 32) (fs : (⟨S65536, .i32⟩ : BufTy).Contents (Elt Ideal)) (n : Fin 65536) (o : Fin 1024) :
    refGate (F := Ideal) c fs (ix2 n o) = Cert.Spec.gate c (fs (ix1 n)) := by
  unfold refGate
  refine (broadcastInDim_apply _ bcast_S65536x1_S65536x1024_0_1 _ (ix2 n o) (ix2 n (0 : Fin 1)) fun a => ?_).trans ?_
  · match a with
    | ⟨0, _⟩ => rfl
    | ⟨1, _⟩ => rfl
  refine (broadcastInDim_apply _ bcast_S65536_S65536x1_0 _ (ix2 n (0 : Fin 1)) (ix1 n) fun a => ?_).trans ?_
  · match a with
    | ⟨0, _⟩ => rfl
  rfl

/-- The bias array of expert `g` at token `n`, output feature `o`: the bias of `g` at `o`. -/
theorem refBias_apply (g : Fin 4) (off2 : Fin S4x1024.rank → Nat) (h2 : off2 = ![g.val, 0]) (hb : S4x1024.Slices off2 S1x1024)
    (b : (⟨S4x1024, .f32⟩ : BufTy).Contents (Elt Ideal)) (n : Fin 65536) (o : Fin 1024) :
    refBias (F := Ideal) off2 hb b (ix2 n o) = b (ix2 g o) := by
  subst h2
  unfold refBias
  refine (broadcastInDim_apply _ bcast_S1x1024_S65536x1024_0_1 _ (ix2 n o) (ix2 (0 : Fin 1) o) fun a => ?_).trans ?_
  · match a with
    | ⟨0, _⟩ => rfl
    | ⟨1, _⟩ => rfl
  refine (broadcastInDim_apply _ bcast_S1024_S1x1024_1 _ (ix2 (0 : Fin 1) o) (ix1 o) fun a => ?_).trans ?_
  · match a with
    | ⟨0, _⟩ => rfl
  refine (shapeCast_1a_a_apply _ shapeCasts_S1x1024_S1024 o).trans ?_
  refine extractStridedSlice_apply _ b hb (ix2 (0 : Fin 1) o) (ix2 g o) fun a => ?_
  match a with
  | ⟨0, _⟩ => rfl
  | ⟨1, _⟩ => exact (Nat.zero_add o.val).symm

/-- The masked weight of expert `g` at output feature `o`, feature `k`: the weight times the mask. -/
theorem refWeight_apply (g : Fin 4) (off3 : Fin S4x1024x512.rank → Nat) (off2 : Fin S4x512.rank → Nat)
    (h3 : off3 = ![g.val, 0, 0]) (h2 : off2 = ![g.val, 0])
    (hw : S4x1024x512.Slices off3 S1x1024x512) (hμ : S4x512.Slices off2 S1x512)
    (w : (⟨S4x1024x512, .f32⟩ : BufTy).Contents (Elt Ideal)) (μ : (⟨S4x512, .f32⟩ : BufTy).Contents (Elt Ideal)) (o : Fin 1024) (k : Fin 512) :
    refWeight (F := Ideal) off3 off2 hw hμ w μ (ix2 o k) = w (ix3 g o k) * μ (ix2 g k) := by
  subst h3 h2
  unfold refWeight
  have e1 : shapeCast S1024x512 (extractStridedSlice S1x1024x512 ![g.val, 0, 0] w hw) shapeCasts_S1x1024x512_S1024x512 (ix2 o k)
      = w (ix3 g o k) := by
    refine (shapeCast_1ab_ab_apply _ shapeCasts_S1x1024x512_S1024x512 o k).trans ?_
    refine extractStridedSlice_apply _ w hw (ix3 (0 : Fin 1) o k) (ix3 g o k) fun a => ?_
    match a with
    | ⟨0, _⟩ => rfl
    | ⟨1, _⟩ => exact (Nat.zero_add o.val).symm
    | ⟨2, _⟩ => exact (Nat.zero_add k.val).symm
  have e2 : broadcastInDim S1024x512 ![0, 1] bcast_S1x512_S1024x512_0_1
        (broadcastInDim S1x512 ![1] bcast_S512_S1x512_1
          (shapeCast S512 (extractStridedSlice S1x512 ![g.val, 0] μ hμ) shapeCasts_S1x512_S512)) (ix2 o k)
      = μ (ix2 g k) := by
    refine (broadcastInDim_apply _ bcast_S1x512_S1024x512_0_1 _ (ix2 o k) (ix2 (0 : Fin 1) k) fun a => ?_).trans ?_
    · match a with
      | ⟨0, _⟩ => rfl
      | ⟨1, _⟩ => rfl
    refine (broadcastInDim_apply _ bcast_S512_S1x512_1 _ (ix2 (0 : Fin 1) k) (ix1 k) fun a => ?_).trans ?_
    · match a with
      | ⟨0, _⟩ => rfl
    refine (shapeCast_1a_a_apply _ shapeCasts_S1x512_S512 k).trans ?_
    refine extractStridedSlice_apply _ μ hμ (ix2 (0 : Fin 1) k) (ix2 g k) fun a => ?_
    match a with
    | ⟨0, _⟩ => rfl
    | ⟨1, _⟩ => exact (Nat.zero_add k.val).symm
  exact (mulf_apply _ _ (ix2 o k)).trans (congrArg₂ (fun p q : EReal => p * q) e1 e2)

/-- One expert's whole-array term at token `n`, output feature `o`: the gated affine map of the specification. -/
theorem refExpert_apply (g : Fin 4) (off3 : Fin S4x1024x512.rank → Nat) (off2 : Fin S4x512.rank → Nat)
    (h3 : off3 = ![g.val, 0, 0]) (h2 : off2 = ![g.val, 0])
    (hw : S4x1024x512.Slices off3 S1x1024x512) (hμ : S4x512.Slices off2 S1x512) (hb : S4x1024.Slices off2 S1x1024) (c : BitVec 32)
    (x : (⟨S65536x512, .f32⟩ : BufTy).Contents (Elt Ideal)) (fs : (⟨S65536, .i32⟩ : BufTy).Contents (Elt Ideal)) (w : (⟨S4x1024x512, .f32⟩ : BufTy).Contents (Elt Ideal)) (b : (⟨S4x1024, .f32⟩ : BufTy).Contents (Elt Ideal))
    (μ : (⟨S4x512, .f32⟩ : BufTy).Contents (Elt Ideal)) (n : Fin 65536) (o : Fin 1024) :
    refExpert (F := Ideal) off3 off2 hw hμ hb c x fs w b μ (ix2 n o) = Cert.Spec.expert c g x fs w b μ n o := by
  unfold refExpert Cert.Spec.expert
  have hd : Host.dotGeneral (F := Ideal) (φ₁ := .f32) (φ₂ := .f32) dot_S65536x512_S1024x512_S65536x1024_1_1_0_0_n_n none x
        (refWeight (F := Ideal) off3 off2 hw hμ w μ) (ix2 n o)
      = ∑ k : Fin 512, x (ix2 n k) * (w (ix3 g o k) * μ (ix2 g k)) :=
    (Cert.Lib.dotGeneral_rowsDot_apply (M := 65536) (K := 512) (N := 1024) (φ₁ := .f32) (φ₂ := .f32) none .single x
        (refWeight (F := Ideal) off3 off2 hw hμ w μ) n o).trans
      (Finset.sum_congr rfl fun k _ => by rw [refWeight_apply g off3 off2 h3 h2])
  refine (mulf_apply _ _ (ix2 n o)).trans ?_
  refine congrArg₂ (fun p q : EReal => p * q) (refGate_apply c fs n o) ?_
  refine (addf_apply _ _ (ix2 n o)).trans ?_
  exact congrArg₂ (fun p q : EReal => p + q) hd (refBias_apply g off2 h2 hb b n o)

/-- The reference's whole result at token `n`, output feature `o`: the four gated experts added in order. -/
theorem refOut_apply (x : (⟨S65536x512, .f32⟩ : BufTy).Contents (Elt Ideal)) (fs : (⟨S65536, .i32⟩ : BufTy).Contents (Elt Ideal)) (w : (⟨S4x1024x512, .f32⟩ : BufTy).Contents (Elt Ideal)) (b : (⟨S4x1024, .f32⟩ : BufTy).Contents (Elt Ideal))
    (n : Fin 65536) (o : Fin 1024) :
    refOut (F := Ideal) x fs w b (ix2 n o) = Cert.Spec.routedAt x fs w b mask n o := by
  unfold refOut Cert.Spec.routedAt
  rw [refMask_eq]
  refine (addf_apply _ _ (ix2 n o)).trans (congrArg₂ (fun p q : EReal => p + q) ?_ (refExpert_apply 3 _ _ rfl rfl _ _ _ _ x fs w b mask n o))
  refine (addf_apply _ _ (ix2 n o)).trans (congrArg₂ (fun p q : EReal => p + q) ?_ (refExpert_apply 2 _ _ rfl rfl _ _ _ _ x fs w b mask n o))
  refine (addf_apply _ _ (ix2 n o)).trans (congrArg₂ (fun p q : EReal => p + q) ?_ (refExpert_apply 1 _ _ rfl rfl _ _ _ _ x fs w b mask n o))
  refine (addf_apply _ _ (ix2 n o)).trans ?_
  exact (congrArg₂ (fun p q : EReal => p + q) Ideal.ofBits_zero_f32 (refExpert_apply 0 _ _ rfl rfl _ _ _ _ x fs w b mask n o)).trans (zero_add _)

/-- The reference's whole result is the specification's routed map. -/
theorem refOut_eq (x : (⟨S65536x512, .f32⟩ : BufTy).Contents (Elt Ideal)) (fs : (⟨S65536, .i32⟩ : BufTy).Contents (Elt Ideal)) (w : (⟨S4x1024x512, .f32⟩ : BufTy).Contents (Elt Ideal)) (b : (⟨S4x1024, .f32⟩ : BufTy).Contents (Elt Ideal)) :
    refOut (F := Ideal) x fs w b = Cert.Spec.routed x fs w b mask := by
  funext i
  have h := (refOut_apply x fs w b (i 0) (i 1)).trans (Cert.Spec.routed_apply x fs w b mask (i 0) (i 1)).symm
  exact (congrArg (refOut (F := Ideal) x fs w b) (eq_ix2 i)).trans (h.trans (congrArg (Cert.Spec.routed x fs w b mask) (eq_ix2 i)).symm)

/-- On every device, from any memory with zero counters: every weakly fair execution of the reference terminates with
    the result buffer at the routed affine map of the four arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
        = Cert.Spec.routed (m ((c.tc : Thread nD τ).loc main_arg0)) (m ((c.tc : Thread nD τ).loc main_arg1)) (m ((c.tc : Thread nD τ).loc main_arg2)) (m ((c.tc : Thread nD τ).loc main_arg3)) mask
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v87).trans ((after_out (launchContents m c)).trans (refOut_eq _ _ _ _)),
       (h c main_arg0).trans (after_arg0 (launchContents m c)),
       (h c main_arg1).trans (after_arg1 (launchContents m c)),
       (h c main_arg2).trans (after_arg2 (launchContents m c)),
       (h c main_arg3).trans (after_arg3 (launchContents m c))⟩)
    (run_after m ρ)

end Cert.RefValue

end
-- ==== Proof.MaskEq.lean ====
/-
  The kernel's feature mask and the reference's are the same array.

  Each program builds its mask by the same operations from its own table of the four declared sizes, and the two
  tables list the same four numbers: 64, 128, 256, 512.  The facts about spreading that each mask cites are
  propositions, so which proof is cited does not matter.
-/
import proofs.«181010_j4801773437021_2_alg».proof.Proof.KernelHost
import proofs.«181010_j4801773437021_2_alg».proof.Proof.RefRead

noncomputable section

namespace Cert.MaskEq

open Idealize.ShloMosaic

/-- The two programs' tables of declared sizes agree entry by entry. -/
theorem lit0_eq : Cert.KernelIdeal.lit0 = Cert.ReferenceIdeal.lit0 := funext (by decide)

/-- The kernel's feature mask is the reference's. -/
theorem mask_eq : Cert.KernelValue.mask = Cert.RefValue.mask :=
  congrArg (fun l : Fin 4 → BitVec 32 =>
      Cert.Spec.featMask Cert.ReferenceIdeal.Facts₀.bcast_S512_S1x512_1 Cert.ReferenceIdeal.Facts₀.bcast_S4_S4x1_0
        Cert.ReferenceIdeal.Facts₀.bcast_S1x512_S4x512_0_1 Cert.ReferenceIdeal.Facts₀.bcast_S4x1_S4x512_0_1
        (fun i => l (Cert.ReferenceIdeal.S4.rowMajor i)))
    lit0_eq

end Cert.MaskEq

end
-- ==== Proof.lean ====
/-
  A routed ("mixture of experts") masked linear map: kernel against reference, over the extended reals.

  Each of 65536 tokens (512 features) declares an input size; four experts with declared sizes 64, 128, 256, 512 each
  have a 1024 x 512 weight matrix, a bias row and a 0/1 mask keeping the first size_g features.  Both programs compute

      out[n, o] = Σ_g [declared(n) = size_g] · ( Σ_k x[n, k] · (w[g, o, k] · mask[g, k]) + b[g, o] ).

  The reference contracts all 512 features for every expert and starts its sum from a zero array; the kernel works on
  blocks of 1024 tokens, masks the weights once on the host, and contracts only the first 128, 128, 256, 512 features of
  experts 0..3.  The two agree because the dropped terms are x · (w · 0) = 0 (the mask vanishes from feature size_g ≤ K_g
  on; on the extended reals w · 0 = 0 and x · 0 = 0 for every w and x, so no finiteness is needed), because 0 + a = a, and
  because a change of float format is the identity at this instance.  The kernel's array (Proof/Kernel*.lean, over the
  generated frame run) and the reference's (Proof/Ref*.lean, its run written out operation by operation) are both shown to
  be `Cert.Spec.routed` of the argument arrays; the two masks are one function (Proof/MaskEq.lean).
-/
import proofs.«181010_j4801773437021_2_alg».proof.Defs
import proofs.«181010_j4801773437021_2_alg».proof.Proof.Gen.Kernel
import proofs.«181010_j4801773437021_2_alg».proof.Proof.Gen.Kernel.Skeleton
import proofs.«181010_j4801773437021_2_alg».proof.Proof.Gen.Kernel.Launch
import proofs.«181010_j4801773437021_2_alg».proof.Proof.Gen.Kernel.Points
import proofs.«181010_j4801773437021_2_alg».proof.Proof.Gen.Kernel.Frame
import proofs.«181010_j4801773437021_2_alg».proof.Proof.Gen.KernelIdeal
import proofs.«181010_j4801773437021_2_alg».proof.Proof.Gen.KernelIdeal.Skeleton
import proofs.«181010_j4801773437021_2_alg».proof.Proof.Gen.KernelIdeal.Launch
import proofs.«181010_j4801773437021_2_alg».proof.Proof.Gen.KernelIdeal.Points
import proofs.«181010_j4801773437021_2_alg».proof.Proof.Gen.KernelIdeal.Frame
import proofs.«181010_j4801773437021_2_alg».proof.Proof.Gen.KernelIdeal.Value
import proofs.«181010_j4801773437021_2_alg».proof.Proof.Gen.ReferenceIdeal
import proofs.«181010_j4801773437021_2_alg».proof.Proof.Gen.Pre_finite_inputs
import proofs.«181010_j4801773437021_2_alg».proof.Proof.KernelArrays
import proofs.«181010_j4801773437021_2_alg».proof.Proof.RefRead
import proofs.«181010_j4801773437021_2_alg».proof.Proof.MaskEq
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.RefValue.run m ρ)

/-- Both programs end with the routed map of the (agreeing) argument arrays. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2, ← Cert.MaskEq.mask_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
